-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S128x32 : Shape := ⟨2, ![128, 32]⟩
abbrev S32x1x1 : Shape := ⟨3, ![32, 1, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32x1x1 : S_.BroadcastsInDim S32x1x1 (![] : Fin 0 → Fin S32x1x1.rank)
  reducesTo_S32x1x1_S_d0_1_2 : S32x1x1.ReducesTo [0, 1, 2] S_

variable [Facts]

def fn {F : FTy → Type} [FloatOps F] (main_arg0 : FVec F S50000x128 .f32) (main_arg1 : IVec S50000 32) (main_arg2 : FVec F S128x32 .f32) (main_arg3 : FVec F S32x1x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32x1x1 .f32 := Host.absf main_arg3
  let main_cst_2 : FVec F S_ .f32 := constant S_ .f32 0x7F800000#32
  let main_v10 : FVec F S32x1x1 .f32 := broadcastInDim S32x1x1 ![] bcast_S_S32x1x1 main_cst_2
  let main_v11 : IVec S32x1x1 1 := cmpf .olt main_v9 main_v10
  let main_c_3 : IVec S_ 1 := constantI S_ 1 1#1
  let main_v12 : IVec S_ 1 := (fun x v => Host.reduce IntOp.andi x v reducesTo_S32x1x1_S_d0_1_2 h_S_) main_v11 main_c_3
  let main_v13 : IVec S_ 1 := andi main_v8 main_v12
  main_v13
-- ==== Kernel.lean ====
abbrev S50000x128 : Shape := ⟨2, ![50000, 128]⟩
abbrev S50000 : Shape := ⟨1, ![50000]⟩
abbrev S128x32 : Shape := ⟨2, ![128, 32]⟩
abbrev S32x1x1 : Shape := ⟨3, ![32, 1, 1]⟩
abbrev S32x1 : Shape := ⟨2, ![32, 1]⟩
abbrev S_ : Shape := ⟨0, ![]⟩
abbrev S10x5000x1 : Shape := ⟨3, ![10, 5000, 1]⟩
abbrev S128x1024 : Shape := ⟨2, ![128, 1024]⟩
abbrev S128x32x32 : Shape := ⟨3, ![128, 32, 32]⟩
abbrev S5000x128 : Shape := ⟨2, ![5000, 128]⟩
abbrev S1x5000x1 : Shape := ⟨3, ![1, 5000, 1]⟩
abbrev S1024x128 : Shape := ⟨2, ![1024, 128]⟩
abbrev S8x128 : Shape := ⟨2, ![8, 128]⟩
abbrev S1024x5000 : Shape := ⟨2, ![1024, 5000]⟩
abbrev S32x5000 : Shape := ⟨2, ![32, 5000]⟩
abbrev S1x1 : Shape := ⟨2, ![1, 1]⟩
abbrev S5000x1 : Shape := ⟨2, ![5000, 1]⟩
abbrev S1x128 : Shape := ⟨2, ![1, 128]⟩
abbrev S128 : Shape := ⟨1, ![128]⟩
abbrev S128x1 : Shape := ⟨2, ![128, 1]⟩

abbrev nBuf : Space → Nat
  | .hbm => 11
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S128x32, .f32⟩
  | .hbm, ⟨3, _⟩ => ⟨S32x1x1, .f32⟩
  | .hbm, ⟨4, _⟩ => ⟨S32x1, .f32⟩
  | .hbm, ⟨5, _⟩ => ⟨S_, .f32⟩
  | .hbm, ⟨6, _⟩ => ⟨S32x1, .f32⟩
  | .hbm, ⟨7, _⟩ => ⟨S32x1, .f32⟩
  | .hbm, ⟨8, _⟩ => ⟨S10x5000x1, .i32⟩
  | .hbm, ⟨9, _⟩ => ⟨S128x1024, .f32⟩
  | .hbm, ⟨10, _⟩ => ⟨S128x32x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x5000x1, .i32⟩
  | .local _ .vmem, ⟨4, _⟩ => ⟨S1x5000x1, .i32⟩
  | .local _ .vmem, ⟨5, _⟩ => ⟨S32x1, .f32⟩
  | .local _ .vmem, ⟨6, _⟩ => ⟨S128x1024, .f32⟩
  | .local _ .vmem, ⟨7, _⟩ => ⟨S1024x128, .f32⟩
  | .local _ .vmem, ⟨8, _⟩ => ⟨S8x128, .f32⟩
  | .local _ .vmem, ⟨9, _⟩ => ⟨S1024x5000, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v287 : BitVec 1 := Scalar.cmpi .eq arg0 c9_i32
  let v288 : BitVec 32 := Scalar.extui v287
  let c0_i32_86 : BitVec 32 := 0#32
  let v289 : BitVec 1 := Scalar.cmpi .ne v288 c0_i32_86
  v289

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32x1x1_S32x1 : S32x1x1.ShapeCasts S32x1
  bcast_S_S32x1 : S_.BroadcastsInDim S32x1 (![] : Fin 0 → Fin S32x1.rank)
  shapeCasts_S50000_S10x5000x1 : S50000.ShapeCasts S10x5000x1
  shapeCasts_S128x1024_S128x32x32 : S128x1024.ShapeCasts S128x32x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  inb_S32x1_S1x1_0_0 : ∀ a, (![0, 0] : Fin 2 → Nat) a + S1x1.size a ≤ S32x1.size a
  h_S1x1 : 0 < S1x1.numel
  inpos_S1x1_p0_0 : ∀ a, (![0, 0] : Fin 2 → Nat) a < S1x1.size a
  inb_S1024x5000_S32x5000_0_0 : ∀ a, (![0, 0] : Fin 2 → Nat) a + S32x5000.size a ≤ S1024x5000.size a
  h_S32x5000 : 0 < S32x5000.numel
  shapeCasts_S32x5000_S32x5000 : S32x5000.ShapeCasts S32x5000
  inb_S32x1_S1x1_1_0 : ∀ a, (![1, 0] : Fin 2 → Nat) a + S1x1.size a ≤ S32x1.size a
  inb_S1024x5000_S32x5000_32_0 : ∀ a, (![32, 0] : Fin 2 → Nat) a + S32x5000.size a ≤ S1024x5000.size a
  inb_S32x1_S1x1_2_0 : ∀ a, (![2, 0] : Fin 2 → Nat) a + S1x1.size a ≤ S32x1.size a
  inb_S1024x5000_S32x5000_64_0 : ∀ a, (![64, 0] : Fin 2 → Nat) a + S32x5000.size a ≤ S1024x5000.size a
  inb_S32x1_S1x1_3_0 : ∀ a, (![3, 0] : Fin 2 → Nat) a + S1x1.size a ≤ S32x1.size a
  inb_S1024x5000_S32x5000_96_0 : ∀ a, (![96, 0] : Fin 2 → Nat) a + S32x5000.size a ≤ S1024x5000.size a
  inb_S32x1_S1x1_4_0 : ∀ a, (![4, 0] : Fin 2 → Nat) a + S1x1.size a ≤ S32x1.size a
  inb_S1024x5000_S32x5000_128_0 : ∀ a, (![128, 0] : Fin 2 → Nat) a + S32x5000.size a ≤ S1024x5000.size a
  inb_S32x1_S1x1_5_0 : ∀ a, (![5, 0] : Fin 2 → Nat) a + S1x1.size a ≤ S32x1.size a
  inb_S1024x5000_S32x5000_160_0 : ∀ a, (![160, 0] : Fin 2 → Nat) a + S32x5000.size a ≤ S1024x5000.size a
  inb_S32x1_S1x1_6_0 : ∀ a, (![6, 0] : Fin 2 → Nat) a + S1x1.size a ≤ S32x1.size a
  inb_S1024x5000_S32x5000_192_0 : ∀ a, (![192, 0] : Fin 2 → Nat) a + S32x5000.size a ≤ S1024x5000.size a
  inb_S32x1_S1x1_7_0 : ∀ a, (![7, 0] : Fin 2 → Nat) a + S1x1.size a ≤ S32x1.size a
  inb_S1024x5000_S32x5000_224_0 : ∀ a, (![224, 0] : Fin 2 → Nat) a + S32x5000.size a ≤ S1024x5000.size a
  inb_S32x1_S1x1_8_0 : ∀ a, (![8, 0] : Fin 2 → Nat) a + S1x1.size a ≤ S32x1.size a
  inb_S1024x5000_S32x5000_256_0 : ∀ a, (![256, 0] : Fin 2 → Nat) a + S32x5000.size a ≤ S1024x5000.size a
  inb_S32x1_S1x1_9_0 : ∀ a, (![9, 0] : Fin 2 → Nat) a + S1x1.size a ≤ S32x1.size a
  inb_S1024x5000_S32x5000_288_0 : ∀ a, (![288, 0] : Fin 2 → Nat) a + S32x5000.size a ≤ S1024x5000.size a
  inb_S32x1_S1x1_10_0 : ∀ a, (![10, 0] : Fin 2 → Nat) a + S1x1.size a ≤ S32x1.size a
  inb_S1024x5000_S32x5000_320_0 : ∀ a, (![320, 0] : Fin 2 → Nat) a + S32x5000.size a ≤ S1024x5000.size a
  inb_S32x1_S1x1_11_0 : ∀ a, (![11, 0] : Fin 2 → Nat) a + S1x1.size a ≤ S32x1.size a
  inb_S1024x5000_S32x5000_352_0 : ∀ a, (![352, 0] : Fin 2 → Nat) a + S32x5000.size a ≤ S1024x5000.size a
  inb_S32x1_S1x1_12_0 : ∀ a, (![12, 0] : Fin 2 → Nat) a + S1x1.size a ≤ S32x1.size a
  inb_S1024x5000_S32x5000_384_0 : ∀ a, (![384, 0] : Fin 2 → Nat) a + S32x5000.size a ≤ S1024x5000.size a
  inb_S32x1_S1x1_13_0 : ∀ a, (![13, 0] : Fin 2 → Nat) a + S1x1.size a ≤ S32x1.size a
  inb_S1024x5000_S32x5000_416_0 : ∀ a, (![416, 0] : Fin 2 → Nat) a + S32x5000.size a ≤ S1024x5000.size a
  inb_S32x1_S1x1_14_0 : ∀ a, (![14, 0] : Fin 2 → Nat) a + S1x1.size a ≤ S32x1.size a
  inb_S1024x5000_S32x5000_448_0 : ∀ a, (![448, 0] : Fin 2 → Nat) a + S32x5000.size a ≤ S1024x5000.size a
  inb_S32x1_S1x1_15_0 : ∀ a, (![15, 0] : Fin 2 → Nat) a + S1x1.size a ≤ S32x1.size a
  inb_S1024x5000_S32x5000_480_0 : ∀ a, (![480, 0] : Fin 2 → Nat) a + S32x5000.size a ≤ S1024x5000.size a
  inb_S32x1_S1x1_16_0 : ∀ a, (![16, 0] : Fin 2 → Nat) a + S1x1.size a ≤ S32x1.size a
  inb_S1024x5000_S32x5000_512_0 : ∀ a, (![512, 0] : Fin 2 → Nat) a + S32x5000.size a ≤ S1024x5000.size a
  inb_S32x1_S1x1_17_0 : ∀ a, (![17, 0] : Fin 2 → Nat) a + S1x1.size a ≤ S32x1.size a
  inb_S1024x5000_S32x5000_544_0 : ∀ a, (![544, 0] : Fin 2 → Nat) a + S32x5000.size a ≤ S1024x5000.size a
  inb_S32x1_S1x1_18_0 : ∀ a, (![18, 0] : Fin 2 → Nat) a + S1x1.size a ≤ S32x1.size a
  inb_S1024x5000_S32x5000_576_0 : ∀ a, (![576, 0] : Fin 2 → Nat) a + S32x5000.size a ≤ S1024x5000.size a
  inb_S32x1_S1x1_19_0 : ∀ a, (![19, 0] : Fin 2 → Nat) a + S1x1.size a ≤ S32x1.size a
  inb_S1024x5000_S32x5000_608_0 : ∀ a, (![608, 0] : Fin 2 → Nat) a + S32x5000.size a ≤ S1024x5000.size a
  inb_S32x1_S1x1_20_0 : ∀ a, (![20, 0] : Fin 2 → Nat) a + S1x1.size a ≤ S32x1.size a
  inb_S1024x5000_S32x5000_640_0 : ∀ a, (![640, 0] : Fin 2 → Nat) a + S32x5000.size a ≤ S1024x5000.size a
  inb_S32x1_S1x1_21_0 : ∀ a, (![21, 0] : Fin 2 → Nat) a + S1x1.size a ≤ S32x1.size a
  inb_S1024x5000_S32x5000_672_0 : ∀ a, (![672, 0] : Fin 2 → Nat) a + S32x5000.size a ≤ S1024x5000.size a
  inb_S32x1_S1x1_22_0 : ∀ a, (![22, 0] : Fin 2 → Nat) a + S1x1.size a ≤ S32x1.size a
  inb_S1024x5000_S32x5000_704_0 : ∀ a, (![704, 0] : Fin 2 → Nat) a + S32x5000.size a ≤ S1024x5000.size a
  inb_S32x1_S1x1_23_0 : ∀ a, (![23, 0] : Fin 2 → Nat) a + S1x1.size a ≤ S32x1.size a
  inb_S1024x5000_S32x5000_736_0 : ∀ a, (![736, 0] : Fin 2 → Nat) a + S32x5000.size a ≤ S1024x5000.size a
  inb_S32x1_S1x1_24_0 : ∀ a, (![24, 0] : Fin 2 → Nat) a + S1x1.size a ≤ S32x1.size a
  inb_S1024x5000_S32x5000_768_0 : ∀ a, (![768, 0] : Fin 2 → Nat) a + S32x5000.size a ≤ S1024x5000.size a
  inb_S32x1_S1x1_25_0 : ∀ a, (![25, 0] : Fin 2 → Nat) a + S1x1.size a ≤ S32x1.size a
  inb_S1024x5000_S32x5000_800_0 : ∀ a, (![800, 0] : Fin 2 → Nat) a + S32x5000.size a ≤ S1024x5000.size a
  inb_S32x1_S1x1_26_0 : ∀ a, (![26, 0] : Fin 2 → Nat) a + S1x1.size a ≤ S32x1.size a
  inb_S1024x5000_S32x5000_832_0 : ∀ a, (![832, 0] : Fin 2 → Nat) a + S32x5000.size a ≤ S1024x5000.size a
  inb_S32x1_S1x1_27_0 : ∀ a, (![27, 0] : Fin 2 → Nat) a + S1x1.size a ≤ S32x1.size a
  inb_S1024x5000_S32x5000_864_0 : ∀ a, (![864, 0] : Fin 2 → Nat) a + S32x5000.size a ≤ S1024x5000.size a
  inb_S32x1_S1x1_28_0 : ∀ a, (![28, 0] : Fin 2 → Nat) a + S1x1.size a ≤ S32x1.size a
  inb_S1024x5000_S32x5000_896_0 : ∀ a, (![896, 0] : Fin 2 → Nat) a + S32x5000.size a ≤ S1024x5000.size a
  inb_S32x1_S1x1_29_0 : ∀ a, (![29, 0] : Fin 2 → Nat) a + S1x1.size a ≤ S32x1.size a
  inb_S1024x5000_S32x5000_928_0 : ∀ a, (![928, 0] : Fin 2 → Nat) a + S32x5000.size a ≤ S1024x5000.size a
  inb_S32x1_S1x1_30_0 : ∀ a, (![30, 0] : Fin 2 → Nat) a + S1x1.size a ≤ S32x1.size a
  inb_S1024x5000_S32x5000_960_0 : ∀ a, (![960, 0] : Fin 2 → Nat) a + S32x5000.size a ≤ S1024x5000.size a
  inb_S32x1_S1x1_31_0 : ∀ a, (![31, 0] : Fin 2 → Nat) a + S1x1.size a ≤ S32x1.size a
  inb_S1024x5000_S32x5000_992_0 : ∀ a, (![992, 0] : Fin 2 → Nat) a + S32x5000.size a ≤ S1024x5000.size a
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  iota_S5000x128_d1_w32 : S5000x128.Iotas .tc 32 [1]
  broadcasts_S5000x1_S5000x128 : S5000x1.Broadcasts S5000x128
  natLt_1_32 : 1 < 32
  inb_S1024x5000_S1024x5000_0_0 : ∀ a, (![0, 0] : Fin 2 → Nat) a + S1024x5000.size a ≤ S1024x5000.size a
  h_S1024x5000 : 0 < S1024x5000.numel
  inb_S8x128_S1x128_0_0 : ∀ a, (![0, 0] : Fin 2 → Nat) a + S1x128.size a ≤ S8x128.size a
  h_S1x128 : 0 < S1x128.numel
  reduces_S5000x128_S128 : S5000x128.Reduces [0] S128
  shapeCasts_S128_S1x128 : S128.ShapeCasts S1x128
  shapeCasts_S1x128_S1x128 : S1x128.ShapeCasts S1x128
  transposes_S1024x128_p1_0_S128x1024 : S1024x128.Transposes [1, 0] S128x1024
  transposes_S1x128_p1_0_S128x1 : S1x128.Transposes [1, 0] S128x1
  broadcasts_S128x1_S128x1024 : S128x1.Broadcasts S128x1024
  inb_S128x1024_S128x1024_0_0 : ∀ a, (![0, 0] : Fin 2 → Nat) a + S128x1024.size a ≤ S128x1024.size a
  h_S128x1024 : 0 < S128x1024.numel
  dot_S128x32_S5000x128_S32x5000_0_1_1_0_n_n_wf : DotDims.WF S128x32 S5000x128 S32x5000 [0] [1] [1] [0] [] []
  dot_S1024x5000_S5000x128_S1024x128_1_0_0_1_n_n_wf : DotDims.WF S1024x5000 S5000x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x1.size a ≤ S10x5000x1.size a
  hwx0_2 : ∀ i : grid0.Coords, EltTy.bits .i32 = 32 ∨ (Rect.block (s := S10x5000x1) S1x5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)

variable [Facts₀]

def dot_S128x32_S5000x128_S32x5000_0_1_1_0_n_n : DotDims S128x32 S5000x128 S32x5000 where
  lhsContracting := [0]
  rhsContracting := [1]
  lhsNonContracting := [1]
  rhsNonContracting := [0]
  lhsBatch := []
  rhsBatch := []
  wf := dot_S128x32_S5000x128_S32x5000_0_1_1_0_n_n_wf
def dot_S1024x5000_S5000x128_S1024x128_1_0_0_1_n_n : DotDims S1024x5000 S5000x128 S1024x128 where
  lhsContracting := [1]
  rhsContracting := [0]
  lhsNonContracting := [0]
  rhsNonContracting := [1]
  lhsBatch := []
  rhsBatch := []
  wf := dot_S1024x5000_S5000x128_S1024x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S128x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S50000 : Shape := ⟨1, ![50000]⟩
abbrev S128x32 : Shape := ⟨2, ![128, 32]⟩
abbrev S32x1x1 : Shape := ⟨3, ![32, 1, 1]⟩
abbrev S50000x32 : Shape := ⟨2, ![50000, 32]⟩
abbrev S1x50000x32 : Shape := ⟨3, ![1, 50000, 32]⟩
abbrev S32x50000x32 : Shape := ⟨3, ![32, 50000, 32]⟩
abbrev S_ : Shape := ⟨0, ![]⟩
abbrev S50000x32x32 : Shape := ⟨3, ![50000, 32, 32]⟩
abbrev S128x32x32 : Shape := ⟨3, ![128, 32, 32]⟩
abbrev S50000x1 : Shape := ⟨2, ![50000, 1]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S128x32, .f32⟩
  | .hbm, ⟨3, _⟩ => ⟨S32x1x1, .f32⟩
  | .hbm, ⟨4, _⟩ => ⟨S50000x32, .f32⟩
  | .hbm, ⟨5, _⟩ => ⟨S1x50000x32, .f32⟩
  | .hbm, ⟨6, _⟩ => ⟨S32x50000x32, .f32⟩
  | .hbm, ⟨7, _⟩ => ⟨S32x50000x32, .f32⟩
  | .hbm, ⟨8, _⟩ => ⟨S32x50000x32, .f32⟩
  | .hbm, ⟨9, _⟩ => ⟨S_, .f32⟩
  | .hbm, ⟨10, _⟩ => ⟨S32x50000x32, .f32⟩
  | .hbm, ⟨11, _⟩ => ⟨S32x50000x32, .f32⟩
  | .hbm, ⟨12, _⟩ => ⟨S32x50000x32, .f32⟩
  | .hbm, ⟨13, _⟩ => ⟨S32x50000x32, .f32⟩
  | .hbm, ⟨14, _⟩ => ⟨S_, .f32⟩
  | .hbm, ⟨15, _⟩ => ⟨S32x50000x32, .f32⟩
  | .hbm, ⟨16, _⟩ => ⟨S32x50000x32, .f32⟩
  | .hbm, ⟨17, _⟩ => ⟨S_, .f32⟩
  | .hbm, ⟨18, _⟩ => ⟨S32x50000x32, .f32⟩
  | .hbm, ⟨19, _⟩ => ⟨S32x50000x32, .f32⟩
  | .hbm, ⟨20, _⟩ => ⟨S50000x32x32, .f32⟩
  | .hbm, ⟨21, _⟩ => ⟨S_, .f32⟩
  | .hbm, ⟨22, _⟩ => ⟨S128x32x32, .f32⟩
  | .hbm, ⟨23, _⟩ => ⟨S50000x1, .i32⟩
  | .hbm, ⟨24, _⟩ => ⟨S128x32x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S50000x32_S1x50000x32_1_2 : S50000x32.BroadcastsInDim S1x50000x32 (![1, 2] : Fin 2 → Fin S1x50000x32.rank)
  bcast_S32x1x1_S32x50000x32_0_1_2 : S32x1x1.BroadcastsInDim S32x50000x32 (![0, 1, 2] : Fin 3 → Fin S32x50000x32.rank)
  bcast_S1x50000x32_S32x50000x32_0_1_2 : S1x50000x32.BroadcastsInDim S32x50000x32 (![0, 1, 2] : Fin 3 → Fin S32x50000x32.rank)
  bcast_S_S32x50000x32 : S_.BroadcastsInDim S32x50000x32 (![] : Fin 0 → Fin S32x50000x32.rank)
  transposes_S32x50000x32_S50000x32x32_1_0_2 : S32x50000x32.Transposes [1, 0, 2] S50000x32x32
  bcast_S_S128x32x32 : S_.BroadcastsInDim S128x32x32 (![] : Fin 0 → Fin S128x32x32.rank)
  bcast_S50000_S50000x1_0 : S50000.BroadcastsInDim S50000x1 (![0] : Fin 1 → Fin S50000x1.rank)
  dot_S50000x128_S128x32_S50000x32_1_0_0_1_n_n_wf : DotDims.WF S50000x128 S128x32 S50000x32 [1] [0] [0] [1] [] []
  scatter_S128x32x32_S50000x1_S50000x32x32_12_0_0_1_wf : ScatterDims.WF S128x32x32 S50000x1 S50000x32x32 [1, 2] [0] [0] 1

variable [Facts₀]

def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def scatter_S128x32x32_S50000x1_S50000x32x32_12_0_0_1 : ScatterDims S128x32x32 S50000x1 S50000x32x32 where
  updateWindowDims := [1, 2]
  insertedWindowDims := [0]
  scatterDimsToOperandDims := [0]
  indexVectorDim := 1
  wf := scatter_S128x32x32_S50000x1_S50000x32x32_12_0_0_1_wf

class Facts : Prop extends Facts₀ where

variable [Facts]
-- ==== Proof.Tile.lean ====
/-
  The tanh tile of one grid point as ONE function.

  At a grid point the body fills a [1024, 5000] scratch in 32 row bands of 32 rows: band s holds
  tanh (c s - b2) for the point's [32, 5000] matrix b2 and the scalar c s (row s of a [32, 1] column).
  So row r = 32 s + t, column j of the scratch holds tanh (c s - b2 (t, j)): the function `TH`.
  Each band's payload is that function on its band (`tile_pay`), hence a whole load of the scratch after
  the 32 stores reads `TH` (`readCov_tiles`).
-/
import proofs.«110302_g1803886264527_cont_8to1_34_14_alg».proof.Proof.Gen.KernelIdeal.Skeleton
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- Row r = 32 s + t, column j of the tile: tanh (c s - b2 (t, j)). -/
def TH (x3 : S32x1.Idx → EReal) (v7 : S32x5000.Idx → EReal) : S1024x5000.Idx → EReal := fun y =>
  Ideal.tanh (x3 (ix2 (⟨(y 0).val / 32, by have := idx2_lt0 y; omega⟩ : Fin 32) (0 : Fin 1))
    - v7 (ix2 (⟨(y 0).val % 32, Nat.mod_lt _ (by norm_num)⟩ : Fin 32) (y 1)))

/-- One band's payload: tanh of the splat of a 1x1 load minus b2. -/
def pay (v7 : FVec Ideal S32x5000 .f32) (v : Vec Ideal S1x1 .f32) : FVec Ideal S32x5000 .f32 :=
  shapeCast S32x5000 (tanh (subf (broadcast S32x5000 (extractAt ![0, 0] v inpos_S1x1_p0_0)) v7)) shapeCasts_S32x5000_S32x5000

theorem pay_apply (v7 : FVec Ideal S32x5000 .f32) (v : Vec Ideal S1x1 .f32) (i : S32x5000.Idx) :
    pay v7 v i = Ideal.tanh (v (ix2 0 0) - v7 i) := by
  unfold pay
  rw [shapeCast_self]
  show Ideal.tanh (extractAt ![0, 0] v inpos_S1x1_p0_0 - v7 i) = _
  congr 2
  unfold extractAt
  congr 1
  funext a
  match a with
  | ⟨0, _⟩ => rfl
  | ⟨1, _⟩ => rfl

/-- Band s's payload is the tile function on rows 32 s .. 32 s + 31. -/
theorem tile_pay (s o : ℕ) (hs : s < 32) (ho : o = 32 * s)
    (inb8 : ∀ a, (![o, 0] : Fin 2 → ℕ) a + S32x5000.size a ≤ S1024x5000.size a)
    (inb4 : ∀ a, (![s, 0] : Fin 2 → ℕ) a + S1x1.size a ≤ S32x1.size a)
    (x3 : S32x1.Idx → EReal) (v7 : FVec Ideal S32x5000 .f32) (x : S32x5000.Idx) :
    pay v7 (View.ld x3 (Rect.unit (s := S32x1) ![s, 0] S1x1.size inb4)) x
      = TH x3 v7 ((Rect.unit (s := S1024x5000) ![o, 0] S32x5000.size inb8).emb x) := by
  subst ho
  rw [pay_apply]
  unfold TH
  have hx0 : (x 0).val < 32 := idx2_lt0 x
  have e0 : (((Rect.unit (s := S1024x5000) ![32 * s, 0] S32x5000.size inb8).emb x) 0).val = 32 * s + 1 * (x 0).val := rfl
  have e1 : (((Rect.unit (s := S1024x5000) ![32 * s, 0] S32x5000.size inb8).emb x) 1).val = 0 + 1 * (x 1).val := rfl
  congr 2
  · show x3 _ = x3 _
    congr 1
    funext a
    match a with
    | ⟨0, _⟩ => exact Fin.ext (by show s + 1 * 0 = (((Rect.unit (s := S1024x5000) ![32 * s, 0] S32x5000.size inb8).emb x) 0).val / 32; omega)
    | ⟨1, _⟩ => exact Fin.ext (by show 0 + 1 * 0 = 0; rfl)
  · congr 1
    funext a
    match a with
    | ⟨0, _⟩ => exact Fin.ext (by show (x 0).val = (((Rect.unit (s := S1024x5000) ![32 * s, 0] S32x5000.size inb8).emb x) 0).val % 32; omega)
    | ⟨1, _⟩ => exact Fin.ext (by show (x 1).val = (((Rect.unit (s := S1024x5000) ![32 * s, 0] S32x5000.size inb8).emb x) 1).val; omega)

/-- A whole load of a [1024, 5000] buffer after writes whose payloads are all the tile function on their
    rectangles, and which cover the buffer, reads the tile function. -/
theorem readCov_tiles {sig' : RefSig} {κ : Kind} {sp : Space} (v : View sig' κ sp S1024x5000 .f32)
    (x3 : S32x1.Idx → EReal) (v7 : S32x5000.Idx → EReal)
    (L : List (View.Piece (Elt Ideal) S1024x5000 .f32))
    (hL : ∀ p ∈ L, ∀ x : p.1.shape.Idx, p.2 x = TH x3 v7 (p.1.emb x))
    (hc : ∀ y : S1024x5000.Idx, ∃ p ∈ L, y ∈ p.1.set)
    (inb : ∀ a, (![0, 0] : Fin 2 → ℕ) a + S1024x5000.size a ≤ S1024x5000.size a) :
    v.readCov L (Rect.unit (s := S1024x5000) ![0, 0] S1024x5000.size inb).toLoadRect = TH x3 v7 := by
  have hz : (![0, 0] : Fin 2 → Nat) = fun _ => 0 := funext fun a => by fin_cases a <;> rfl
  rw [View.readCov_eq_canon_ld _ _ _ hc, View.ld_unit_zero (S := S1024x5000) hz]
  funext y
  exact View.canon_apply_of_pieces (TH x3 v7) L hL y (hc y)

end Cert.KernelIdeal.Tile

end
-- ==== Proof.Pieces.lean ====
/-
  What the body leaves at a grid point, case by case, as values.

  The body runs in three cases (first point, a middle point, the last point). In each it overwrites a
  [1024, 5000] scratch with the point's tanh tile (Tile.lean), adds the tile's product with the point's
  one-hot segment matrix to the [1024, 128] accumulator, adds that matrix's column sums to row 0 of the
  [8, 128] count buffer, and at the last point stores the output block from the two. Each lemma reads one
  buffer after one case as the payload of the store that covers it, over the case's input blocks.
-/
import proofs.«110302_g1803886264527_cont_8to1_34_14_alg».proof.Proof.Gen.KernelIdeal.Frame
import proofs.«110302_g1803886264527_cont_8to1_34_14_alg».proof.Proof.Tile
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)
namespace Cert.KernelIdeal.Pieces
open Cert.KernelIdeal Cert.KernelIdeal.Gen Cert.KernelIdeal.Tile Idealize.ShloMosaic.ValueIdx

theorem hz : (![0, 0] : Fin 2 → Nat) = fun _ => 0 := funext fun a => by fin_cases a <;> rfl
theorem hz3 : (![0, 0, 0] : Fin 3 → Nat) = fun _ => 0 := funext fun a => by fin_cases a <;> rfl

/-- Row 0 of the [8, 128] count buffer, as the rectangle the body loads and stores it through. -/
abbrev row0 : Rect S8x128 := (Rect.unit (s := S8x128) ![0, 0] S1x128.size inb_S8x128_S1x128_0_0)

theorem row0_emb (b : Fin 128) : (ix2 (0 : Fin 8) b : S8x128.Idx) = row0.emb (ix2 (0 : Fin 1) b) :=
  funext fun a => Fin.ext (by
    match a with
    | ⟨0, _⟩ => show (0 : ℕ) = 0 + 1 * 0; rfl
    | ⟨1, _⟩ => show b.val = 0 + 1 * b.val; omega)

/-! ## The accumulator: what each case leaves in it -/

/-- First point: the accumulator is zeroed, then the point's one-hot product of the tanh tile is added. -/
theorem sA0 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : cond0_0 i) (hc1 : ¬cond0_1 i) (x0 : Vec Ideal S5000x128 .f32) (x1 : Vec Ideal S128x32 .f32) (x2 : Vec Ideal S1x5000x1 .i32) (x3 : Vec Ideal S32x1 .f32) :
    sout0_A_0 (F := Ideal) c i arg1 harg1 arg2 harg2 arg3 harg3 arg4 harg4 arg5 harg5 arg6 harg6 arg7 harg7 arg8 harg8 hc0 hc1 x0 x1 x2 x3 = k0_pay41 x2 (k0_pay1 (F := Ideal)) (TH x3 (k0_pay3 x0 x1)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]
  congr 1
  refine readCov_tiles _ x3 (k0_pay3 x0 x1) _ ?_ ?_ _
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact fun x => tile_pay 31 992 (by decide) rfl inb_S1024x5000_S32x5000_992_0 inb_S32x1_S1x1_31_0 x3 (k0_pay3 x0 x1) x
    · exact fun x => tile_pay 30 960 (by decide) rfl inb_S1024x5000_S32x5000_960_0 inb_S32x1_S1x1_30_0 x3 (k0_pay3 x0 x1) x
    · exact fun x => tile_pay 29 928 (by decide) rfl inb_S1024x5000_S32x5000_928_0 inb_S32x1_S1x1_29_0 x3 (k0_pay3 x0 x1) x
    · exact fun x => tile_pay 28 896 (by decide) rfl inb_S1024x5000_S32x5000_896_0 inb_S32x1_S1x1_28_0 x3 (k0_pay3 x0 x1) x
    · exact fun x => tile_pay 27 864 (by decide) rfl inb_S1024x5000_S32x5000_864_0 inb_S32x1_S1x1_27_0 x3 (k0_pay3 x0 x1) x
    · exact fun x => tile_pay 26 832 (by decide) rfl inb_S1024x5000_S32x5000_832_0 inb_S32x1_S1x1_26_0 x3 (k0_pay3 x0 x1) x
    · exact fun x => tile_pay 25 800 (by decide) rfl inb_S1024x5000_S32x5000_800_0 inb_S32x1_S1x1_25_0 x3 (k0_pay3 x0 x1) x
    · exact fun x => tile_pay 24 768 (by decide) rfl inb_S1024x5000_S32x5000_768_0 inb_S32x1_S1x1_24_0 x3 (k0_pay3 x0 x1) x
    · exact fun x => tile_pay 23 736 (by decide) rfl inb_S1024x5000_S32x5000_736_0 inb_S32x1_S1x1_23_0 x3 (k0_pay3 x0 x1) x
    · exact fun x => tile_pay 22 704 (by decide) rfl inb_S1024x5000_S32x5000_704_0 inb_S32x1_S1x1_22_0 x3 (k0_pay3 x0 x1) x
    · exact fun x => tile_pay 21 672 (by decide) rfl inb_S1024x5000_S32x5000_672_0 inb_S32x1_S1x1_21_0 x3 (k0_pay3 x0 x1) x
    · exact fun x => tile_pay 20 640 (by decide) rfl inb_S1024x5000_S32x5000_640_0 inb_S32x1_S1x1_20_0 x3 (k0_pay3 x0 x1) x
    · exact fun x => tile_pay 19 608 (by decide) rfl inb_S1024x5000_S32x5000_608_0 inb_S32x1_S1x1_19_0 x3 (k0_pay3 x0 x1) x
    · exact fun x => tile_pay 18 576 (by decide) rfl inb_S1024x5000_S32x5000_576_0 inb_S32x1_S1x1_18_0 x3 (k0_pay3 x0 x1) x
    · exact fun x => tile_pay 17 544 (by decide) rfl inb_S1024x5000_S32x5000_544_0 inb_S32x1_S1x1_17_0 x3 (k0_pay3 x0 x1) x
    · exact fun x => tile_pay 16 512 (by decide) rfl inb_S1024x5000_S32x5000_512_0 inb_S32x1_S1x1_16_0 x3 (k0_pay3 x0 x1) x
    · exact fun x => tile_pay 15 480 (by decide) rfl inb_S1024x5000_S32x5000_480_0 inb_S32x1_S1x1_15_0 x3 (k0_pay3 x0 x1) x
    · exact fun x => tile_pay 14 448 (by decide) rfl inb_S1024x5000_S32x5000_448_0 inb_S32x1_S1x1_14_0 x3 (k0_pay3 x0 x1) x
    · exact fun x => tile_pay 13 416 (by decide) rfl inb_S1024x5000_S32x5000_416_0 inb_S32x1_S1x1_13_0 x3 (k0_pay3 x0 x1) x
    · exact fun x => tile_pay 12 384 (by decide) rfl inb_S1024x5000_S32x5000_384_0 inb_S32x1_S1x1_12_0 x3 (k0_pay3 x0 x1) x
    · exact fun x => tile_pay 11 352 (by decide) rfl inb_S1024x5000_S32x5000_352_0 inb_S32x1_S1x1_11_0 x3 (k0_pay3 x0 x1) x
    · exact fun x => tile_pay 10 320 (by decide) rfl inb_S1024x5000_S32x5000_320_0 inb_S32x1_S1x1_10_0 x3 (k0_pay3 x0 x1) x
    · exact fun x => tile_pay 9 288 (by decide) rfl inb_S1024x5000_S32x5000_288_0 inb_S32x1_S1x1_9_0 x3 (k0_pay3 x0 x1) x
    · exact fun x => tile_pay 8 256 (by decide) rfl inb_S1024x5000_S32x5000_256_0 inb_S32x1_S1x1_8_0 x3 (k0_pay3 x0 x1) x
    · exact fun x => tile_pay 7 224 (by decide) rfl inb_S1024x5000_S32x5000_224_0 inb_S32x1_S1x1_7_0 x3 (k0_pay3 x0 x1) x
    · exact fun x => tile_pay 6 192 (by decide) rfl inb_S1024x5000_S32x5000_192_0 inb_S32x1_S1x1_6_0 x3 (k0_pay3 x0 x1) x
    · exact fun x => tile_pay 5 160 (by decide) rfl inb_S1024x5000_S32x5000_160_0 inb_S32x1_S1x1_5_0 x3 (k0_pay3 x0 x1) x
    · exact fun x => tile_pay 4 128 (by decide) rfl inb_S1024x5000_S32x5000_128_0 inb_S32x1_S1x1_4_0 x3 (k0_pay3 x0 x1) x
    · exact fun x => tile_pay 3 96 (by decide) rfl inb_S1024x5000_S32x5000_96_0 inb_S32x1_S1x1_3_0 x3 (k0_pay3 x0 x1) x
    · exact fun x => tile_pay 2 64 (by decide) rfl inb_S1024x5000_S32x5000_64_0 inb_S32x1_S1x1_2_0 x3 (k0_pay3 x0 x1) x
    · exact fun x => tile_pay 1 32 (by decide) rfl inb_S1024x5000_S32x5000_32_0 inb_S32x1_S1x1_1_0 x3 (k0_pay3 x0 x1) x
    · exact fun x => tile_pay 0 0 (by decide) rfl inb_S1024x5000_S32x5000_0_0 inb_S32x1_S1x1_0_0 x3 (k0_pay3 x0 x1) x
  · exact View.cover_of_tiledL _ S32x5000.size (by sl_kernel_rfl)

/-- A middle point: the point's product is added to what the point before left. -/
theorem sB0 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : ¬cond0_0 i) (hc1 : ¬cond0_1 i) (x0 : Vec Ideal S5000x128 .f32) (x1 : Vec Ideal S128x32 .f32) (x2 : Vec Ideal S1x5000x1 .i32) (x3 : Vec Ideal S32x1 .f32) (xs0 : Vec Ideal S1024x128 .f32) (xs1 : Vec Ideal S8x128 .f32) :
    sout0_B_0 (F := Ideal) c i arg1 harg1 arg2 harg2 arg3 harg3 arg4 harg4 arg5 harg5 arg6 harg6 arg7 harg7 arg8 harg8 hc0 hc1 x0 x1 x2 x3 xs0 xs1 = k0_pay41 x2 xs0 (TH x3 (k0_pay3 x0 x1)) := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]
  congr 1
  refine readCov_tiles _ x3 (k0_pay3 x0 x1) _ ?_ ?_ _
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact fun x => tile_pay 31 992 (by decide) rfl inb_S1024x5000_S32x5000_992_0 inb_S32x1_S1x1_31_0 x3 (k0_pay3 x0 x1) x
    · exact fun x => tile_pay 30 960 (by decide) rfl inb_S1024x5000_S32x5000_960_0 inb_S32x1_S1x1_30_0 x3 (k0_pay3 x0 x1) x
    · exact fun x => tile_pay 29 928 (by decide) rfl inb_S1024x5000_S32x5000_928_0 inb_S32x1_S1x1_29_0 x3 (k0_pay3 x0 x1) x
    · exact fun x => tile_pay 28 896 (by decide) rfl inb_S1024x5000_S32x5000_896_0 inb_S32x1_S1x1_28_0 x3 (k0_pay3 x0 x1) x
    · exact fun x => tile_pay 27 864 (by decide) rfl inb_S1024x5000_S32x5000_864_0 inb_S32x1_S1x1_27_0 x3 (k0_pay3 x0 x1) x
    · exact fun x => tile_pay 26 832 (by decide) rfl inb_S1024x5000_S32x5000_832_0 inb_S32x1_S1x1_26_0 x3 (k0_pay3 x0 x1) x
    · exact fun x => tile_pay 25 800 (by decide) rfl inb_S1024x5000_S32x5000_800_0 inb_S32x1_S1x1_25_0 x3 (k0_pay3 x0 x1) x
    · exact fun x => tile_pay 24 768 (by decide) rfl inb_S1024x5000_S32x5000_768_0 inb_S32x1_S1x1_24_0 x3 (k0_pay3 x0 x1) x
    · exact fun x => tile_pay 23 736 (by decide) rfl inb_S1024x5000_S32x5000_736_0 inb_S32x1_S1x1_23_0 x3 (k0_pay3 x0 x1) x
    · exact fun x => tile_pay 22 704 (by decide) rfl inb_S1024x5000_S32x5000_704_0 inb_S32x1_S1x1_22_0 x3 (k0_pay3 x0 x1) x
    · exact fun x => tile_pay 21 672 (by decide) rfl inb_S1024x5000_S32x5000_672_0 inb_S32x1_S1x1_21_0 x3 (k0_pay3 x0 x1) x
    · exact fun x => tile_pay 20 640 (by decide) rfl inb_S1024x5000_S32x5000_640_0 inb_S32x1_S1x1_20_0 x3 (k0_pay3 x0 x1) x
    · exact fun x => tile_pay 19 608 (by decide) rfl inb_S1024x5000_S32x5000_608_0 inb_S32x1_S1x1_19_0 x3 (k0_pay3 x0 x1) x
    · exact fun x => tile_pay 18 576 (by decide) rfl inb_S1024x5000_S32x5000_576_0 inb_S32x1_S1x1_18_0 x3 (k0_pay3 x0 x1) x
    · exact fun x => tile_pay 17 544 (by decide) rfl inb_S1024x5000_S32x5000_544_0 inb_S32x1_S1x1_17_0 x3 (k0_pay3 x0 x1) x
    · exact fun x => tile_pay 16 512 (by decide) rfl inb_S1024x5000_S32x5000_512_0 inb_S32x1_S1x1_16_0 x3 (k0_pay3 x0 x1) x
    · exact fun x => tile_pay 15 480 (by decide) rfl inb_S1024x5000_S32x5000_480_0 inb_S32x1_S1x1_15_0 x3 (k0_pay3 x0 x1) x
    · exact fun x => tile_pay 14 448 (by decide) rfl inb_S1024x5000_S32x5000_448_0 inb_S32x1_S1x1_14_0 x3 (k0_pay3 x0 x1) x
    · exact fun x => tile_pay 13 416 (by decide) rfl inb_S1024x5000_S32x5000_416_0 inb_S32x1_S1x1_13_0 x3 (k0_pay3 x0 x1) x
    · exact fun x => tile_pay 12 384 (by decide) rfl inb_S1024x5000_S32x5000_384_0 inb_S32x1_S1x1_12_0 x3 (k0_pay3 x0 x1) x
    · exact fun x => tile_pay 11 352 (by decide) rfl inb_S1024x5000_S32x5000_352_0 inb_S32x1_S1x1_11_0 x3 (k0_pay3 x0 x1) x
    · exact fun x => tile_pay 10 320 (by decide) rfl inb_S1024x5000_S32x5000_320_0 inb_S32x1_S1x1_10_0 x3 (k0_pay3 x0 x1) x
    · exact fun x => tile_pay 9 288 (by decide) rfl inb_S1024x5000_S32x5000_288_0 inb_S32x1_S1x1_9_0 x3 (k0_pay3 x0 x1) x
    · exact fun x => tile_pay 8 256 (by decide) rfl inb_S1024x5000_S32x5000_256_0 inb_S32x1_S1x1_8_0 x3 (k0_pay3 x0 x1) x
    · exact fun x => tile_pay 7 224 (by decide) rfl inb_S1024x5000_S32x5000_224_0 inb_S32x1_S1x1_7_0 x3 (k0_pay3 x0 x1) x
    · exact fun x => tile_pay 6 192 (by decide) rfl inb_S1024x5000_S32x5000_192_0 inb_S32x1_S1x1_6_0 x3 (k0_pay3 x0 x1) x
    · exact fun x => tile_pay 5 160 (by decide) rfl inb_S1024x5000_S32x5000_160_0 inb_S32x1_S1x1_5_0 x3 (k0_pay3 x0 x1) x
    · exact fun x => tile_pay 4 128 (by decide) rfl inb_S1024x5000_S32x5000_128_0 inb_S32x1_S1x1_4_0 x3 (k0_pay3 x0 x1) x
    · exact fun x => tile_pay 3 96 (by decide) rfl inb_S1024x5000_S32x5000_96_0 inb_S32x1_S1x1_3_0 x3 (k0_pay3 x0 x1) x
    · exact fun x => tile_pay 2 64 (by decide) rfl inb_S1024x5000_S32x5000_64_0 inb_S32x1_S1x1_2_0 x3 (k0_pay3 x0 x1) x
    · exact fun x => tile_pay 1 32 (by decide) rfl inb_S1024x5000_S32x5000_32_0 inb_S32x1_S1x1_1_0 x3 (k0_pay3 x0 x1) x
    · exact fun x => tile_pay 0 0 (by decide) rfl inb_S1024x5000_S32x5000_0_0 inb_S32x1_S1x1_0_0 x3 (k0_pay3 x0 x1) x
  · exact View.cover_of_tiledL _ S32x5000.size (by sl_kernel_rfl)

/-- The last point: the same. -/
theorem sC0 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : ¬cond0_0 i) (hc1 : cond0_1 i) (x0 : Vec Ideal S5000x128 .f32) (x1 : Vec Ideal S128x32 .f32) (x2 : Vec Ideal S1x5000x1 .i32) (x3 : Vec Ideal S32x1 .f32) (xs0 : Vec Ideal S1024x128 .f32) (xs1 : Vec Ideal S8x128 .f32) :
    sout0_C_0 (F := Ideal) c i arg1 harg1 arg2 harg2 arg3 harg3 arg4 harg4 arg5 harg5 arg6 harg6 arg7 harg7 arg8 harg8 hc0 hc1 x0 x1 x2 x3 xs0 xs1 = k0_pay41 x2 xs0 (TH x3 (k0_pay3 x0 x1)) := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]
  congr 1
  refine readCov_tiles _ x3 (k0_pay3 x0 x1) _ ?_ ?_ _
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact fun x => tile_pay 31 992 (by decide) rfl inb_S1024x5000_S32x5000_992_0 inb_S32x1_S1x1_31_0 x3 (k0_pay3 x0 x1) x
    · exact fun x => tile_pay 30 960 (by decide) rfl inb_S1024x5000_S32x5000_960_0 inb_S32x1_S1x1_30_0 x3 (k0_pay3 x0 x1) x
    · exact fun x => tile_pay 29 928 (by decide) rfl inb_S1024x5000_S32x5000_928_0 inb_S32x1_S1x1_29_0 x3 (k0_pay3 x0 x1) x
    · exact fun x => tile_pay 28 896 (by decide) rfl inb_S1024x5000_S32x5000_896_0 inb_S32x1_S1x1_28_0 x3 (k0_pay3 x0 x1) x
    · exact fun x => tile_pay 27 864 (by decide) rfl inb_S1024x5000_S32x5000_864_0 inb_S32x1_S1x1_27_0 x3 (k0_pay3 x0 x1) x
    · exact fun x => tile_pay 26 832 (by decide) rfl inb_S1024x5000_S32x5000_832_0 inb_S32x1_S1x1_26_0 x3 (k0_pay3 x0 x1) x
    · exact fun x => tile_pay 25 800 (by decide) rfl inb_S1024x5000_S32x5000_800_0 inb_S32x1_S1x1_25_0 x3 (k0_pay3 x0 x1) x
    · exact fun x => tile_pay 24 768 (by decide) rfl inb_S1024x5000_S32x5000_768_0 inb_S32x1_S1x1_24_0 x3 (k0_pay3 x0 x1) x
    · exact fun x => tile_pay 23 736 (by decide) rfl inb_S1024x5000_S32x5000_736_0 inb_S32x1_S1x1_23_0 x3 (k0_pay3 x0 x1) x
    · exact fun x => tile_pay 22 704 (by decide) rfl inb_S1024x5000_S32x5000_704_0 inb_S32x1_S1x1_22_0 x3 (k0_pay3 x0 x1) x
    · exact fun x => tile_pay 21 672 (by decide) rfl inb_S1024x5000_S32x5000_672_0 inb_S32x1_S1x1_21_0 x3 (k0_pay3 x0 x1) x
    · exact fun x => tile_pay 20 640 (by decide) rfl inb_S1024x5000_S32x5000_640_0 inb_S32x1_S1x1_20_0 x3 (k0_pay3 x0 x1) x
    · exact fun x => tile_pay 19 608 (by decide) rfl inb_S1024x5000_S32x5000_608_0 inb_S32x1_S1x1_19_0 x3 (k0_pay3 x0 x1) x
    · exact fun x => tile_pay 18 576 (by decide) rfl inb_S1024x5000_S32x5000_576_0 inb_S32x1_S1x1_18_0 x3 (k0_pay3 x0 x1) x
    · exact fun x => tile_pay 17 544 (by decide) rfl inb_S1024x5000_S32x5000_544_0 inb_S32x1_S1x1_17_0 x3 (k0_pay3 x0 x1) x
    · exact fun x => tile_pay 16 512 (by decide) rfl inb_S1024x5000_S32x5000_512_0 inb_S32x1_S1x1_16_0 x3 (k0_pay3 x0 x1) x
    · exact fun x => tile_pay 15 480 (by decide) rfl inb_S1024x5000_S32x5000_480_0 inb_S32x1_S1x1_15_0 x3 (k0_pay3 x0 x1) x
    · exact fun x => tile_pay 14 448 (by decide) rfl inb_S1024x5000_S32x5000_448_0 inb_S32x1_S1x1_14_0 x3 (k0_pay3 x0 x1) x
    · exact fun x => tile_pay 13 416 (by decide) rfl inb_S1024x5000_S32x5000_416_0 inb_S32x1_S1x1_13_0 x3 (k0_pay3 x0 x1) x
    · exact fun x => tile_pay 12 384 (by decide) rfl inb_S1024x5000_S32x5000_384_0 inb_S32x1_S1x1_12_0 x3 (k0_pay3 x0 x1) x
    · exact fun x => tile_pay 11 352 (by decide) rfl inb_S1024x5000_S32x5000_352_0 inb_S32x1_S1x1_11_0 x3 (k0_pay3 x0 x1) x
    · exact fun x => tile_pay 10 320 (by decide) rfl inb_S1024x5000_S32x5000_320_0 inb_S32x1_S1x1_10_0 x3 (k0_pay3 x0 x1) x
    · exact fun x => tile_pay 9 288 (by decide) rfl inb_S1024x5000_S32x5000_288_0 inb_S32x1_S1x1_9_0 x3 (k0_pay3 x0 x1) x
    · exact fun x => tile_pay 8 256 (by decide) rfl inb_S1024x5000_S32x5000_256_0 inb_S32x1_S1x1_8_0 x3 (k0_pay3 x0 x1) x
    · exact fun x => tile_pay 7 224 (by decide) rfl inb_S1024x5000_S32x5000_224_0 inb_S32x1_S1x1_7_0 x3 (k0_pay3 x0 x1) x
    · exact fun x => tile_pay 6 192 (by decide) rfl inb_S1024x5000_S32x5000_192_0 inb_S32x1_S1x1_6_0 x3 (k0_pay3 x0 x1) x
    · exact fun x => tile_pay 5 160 (by decide) rfl inb_S1024x5000_S32x5000_160_0 inb_S32x1_S1x1_5_0 x3 (k0_pay3 x0 x1) x
    · exact fun x => tile_pay 4 128 (by decide) rfl inb_S1024x5000_S32x5000_128_0 inb_S32x1_S1x1_4_0 x3 (k0_pay3 x0 x1) x
    · exact fun x => tile_pay 3 96 (by decide) rfl inb_S1024x5000_S32x5000_96_0 inb_S32x1_S1x1_3_0 x3 (k0_pay3 x0 x1) x
    · exact fun x => tile_pay 2 64 (by decide) rfl inb_S1024x5000_S32x5000_64_0 inb_S32x1_S1x1_2_0 x3 (k0_pay3 x0 x1) x
    · exact fun x => tile_pay 1 32 (by decide) rfl inb_S1024x5000_S32x5000_32_0 inb_S32x1_S1x1_1_0 x3 (k0_pay3 x0 x1) x
    · exact fun x => tile_pay 0 0 (by decide) rfl inb_S1024x5000_S32x5000_0_0 inb_S32x1_S1x1_0_0 x3 (k0_pay3 x0 x1) x
  · exact View.cover_of_tiledL _ S32x5000.size (by sl_kernel_rfl)

/-! ## The counts: row 0 of the count buffer after each case -/

/-- First point: the buffer is zeroed, then row 0 gets the point's column sums of the one-hot matrix. -/
theorem sA1 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : cond0_0 i) (hc1 : ¬cond0_1 i) (x0 : Vec Ideal S5000x128 .f32) (x1 : Vec Ideal S128x32 .f32) (x2 : Vec Ideal S1x5000x1 .i32) (x3 : Vec Ideal S32x1 .f32) (b : Fin 128) :
    sout0_A_1 (F := Ideal) c i arg1 harg1 arg2 harg2 arg3 harg3 arg4 harg4 arg5 harg5 arg6 harg6 arg7 harg7 arg8 harg8 hc0 hc1 x0 x1 x2 x3 (ix2 0 b)
      = k0_pay42 x2 (View.ld (k0_pay2 (F := Ideal)) row0) (ix2 0 b) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [row0_emb b]
  refine (View.canon_cons_emb _ _ _ _).trans ?_
  rw [View.readCov_eq_canon', View.canon_unit_zero hz]
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]
  try rfl

/-- A middle point: row 0 gets what it held plus the point's column sums. -/
theorem sB1 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : ¬cond0_0 i) (hc1 : ¬cond0_1 i) (x0 : Vec Ideal S5000x128 .f32) (x1 : Vec Ideal S128x32 .f32) (x2 : Vec Ideal S1x5000x1 .i32) (x3 : Vec Ideal S32x1 .f32) (xs0 : Vec Ideal S1024x128 .f32) (xs1 : Vec Ideal S8x128 .f32) (b : Fin 128) :
    sout0_B_1 (F := Ideal) c i arg1 harg1 arg2 harg2 arg3 harg3 arg4 harg4 arg5 harg5 arg6 harg6 arg7 harg7 arg8 harg8 hc0 hc1 x0 x1 x2 x3 xs0 xs1 (ix2 0 b)
      = k0_pay42 x2 (View.ld xs1 row0) (ix2 0 b) := by
  unfold sout0_B_1
  unfold kernelRun0_B
  dsimp only
  rw [row0_emb b]
  refine (View.read_writes_cons_emb _ _ _ _ _ _).trans ?_
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]

/-- The last point: the same. -/
theorem sC1 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : ¬cond0_0 i) (hc1 : cond0_1 i) (x0 : Vec Ideal S5000x128 .f32) (x1 : Vec Ideal S128x32 .f32) (x2 : Vec Ideal S1x5000x1 .i32) (x3 : Vec Ideal S32x1 .f32) (xs0 : Vec Ideal S1024x128 .f32) (xs1 : Vec Ideal S8x128 .f32) (b : Fin 128) :
    sout0_C_1 (F := Ideal) c i arg1 harg1 arg2 harg2 arg3 harg3 arg4 harg4 arg5 harg5 arg6 harg6 arg7 harg7 arg8 harg8 hc0 hc1 x0 x1 x2 x3 xs0 xs1 (ix2 0 b)
      = k0_pay42 x2 (View.ld xs1 row0) (ix2 0 b) := by
  unfold sout0_C_1
  unfold kernelRun0_C
  dsimp only
  sl_unfold_words
  rw [row0_emb b]
  refine (View.read_writes_cons_emb _ _ _ _ _ _).trans ?_
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]

/-! ## The output block the last point stores -/

/-- The last point stores half of (the accumulator transposed plus the counts down the rows), of the
    accumulator and the counts as it has just updated them. -/
theorem oC4 (c : Dev nD) (i : grid0.Coords) (arg1 : Memref sig .tc .vmem S5000x128 .f32) (harg1 : arg1.IsWhole) (arg2 : Memref sig .tc .vmem S128x32 .f32) (harg2 : arg2.IsWhole) (arg3 : Memref sig .tc .vmem S1x5000x1 .i32) (harg3 : arg3.IsWhole) (arg4 : Memref sig .tc .vmem S32x1 .f32) (harg4 : arg4.IsWhole) (arg5 : Memref sig .tc .vmem S128x1024 .f32) (harg5 : arg5.IsWhole) (arg6 : Memref sig .tc .vmem S1024x128 .f32) (harg6 : arg6.IsWhole) (arg7 : Memref sig .tc .vmem S8x128 .f32) (harg7 : arg7.IsWhole) (arg8 : Memref sig .tc .vmem S1024x5000 .f32) (harg8 : arg8.IsWhole) (hc0 : ¬cond0_0 i) (hc1 : cond0_1 i) (x0 : Vec Ideal S5000x128 .f32) (x1 : Vec Ideal S128x32 .f32) (x2 : Vec Ideal S1x5000x1 .i32) (x3 : Vec Ideal S32x1 .f32) (xs0 : Vec Ideal S1024x128 .f32) (xs1 : Vec Ideal S8x128 .f32) :
    out0_C_4 (F := Ideal) c i arg1 harg1 arg2 harg2 arg3 harg3 arg4 harg4 arg5 harg5 arg6 harg6 arg7 harg7 arg8 harg8 hc0 hc1 x0 x1 x2 x3 xs0 xs1
      = k0_pay43 (k0_pay41 x2 xs0 (TH x3 (k0_pay3 x0 x1))) (k0_pay42 x2 (View.ld xs1 row0)) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz, View.readCov_unit_zero (S := S1024x128) _ hz, View.readCov_cons_toLoadRect]
  simp only [View.readAt_eq_ld, harg1.read_unread, harg2.read_unread, harg3.read_unread, harg4.read_unread, harg6.read_unread, harg7.read_unread,
    View.ld_unit_zero (S := S5000x128) hz, View.ld_unit_zero (S := S128x32) hz, View.ld_unit_zero (S := S1x5000x1) hz3,
    View.ld_unit_zero (S := S1024x128) hz]
  congr 2
  refine readCov_tiles _ x3 (k0_pay3 x0 x1) _ ?_ ?_ _
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact fun x => tile_pay 31 992 (by decide) rfl inb_S1024x5000_S32x5000_992_0 inb_S32x1_S1x1_31_0 x3 (k0_pay3 x0 x1) x
    · exact fun x => tile_pay 30 960 (by decide) rfl inb_S1024x5000_S32x5000_960_0 inb_S32x1_S1x1_30_0 x3 (k0_pay3 x0 x1) x
    · exact fun x => tile_pay 29 928 (by decide) rfl inb_S1024x5000_S32x5000_928_0 inb_S32x1_S1x1_29_0 x3 (k0_pay3 x0 x1) x
    · exact fun x => tile_pay 28 896 (by decide) rfl inb_S1024x5000_S32x5000_896_0 inb_S32x1_S1x1_28_0 x3 (k0_pay3 x0 x1) x
    · exact fun x => tile_pay 27 864 (by decide) rfl inb_S1024x5000_S32x5000_864_0 inb_S32x1_S1x1_27_0 x3 (k0_pay3 x0 x1) x
    · exact fun x => tile_pay 26 832 (by decide) rfl inb_S1024x5000_S32x5000_832_0 inb_S32x1_S1x1_26_0 x3 (k0_pay3 x0 x1) x
    · exact fun x => tile_pay 25 800 (by decide) rfl inb_S1024x5000_S32x5000_800_0 inb_S32x1_S1x1_25_0 x3 (k0_pay3 x0 x1) x
    · exact fun x => tile_pay 24 768 (by decide) rfl inb_S1024x5000_S32x5000_768_0 inb_S32x1_S1x1_24_0 x3 (k0_pay3 x0 x1) x
    · exact fun x => tile_pay 23 736 (by decide) rfl inb_S1024x5000_S32x5000_736_0 inb_S32x1_S1x1_23_0 x3 (k0_pay3 x0 x1) x
    · exact fun x => tile_pay 22 704 (by decide) rfl inb_S1024x5000_S32x5000_704_0 inb_S32x1_S1x1_22_0 x3 (k0_pay3 x0 x1) x
    · exact fun x => tile_pay 21 672 (by decide) rfl inb_S1024x5000_S32x5000_672_0 inb_S32x1_S1x1_21_0 x3 (k0_pay3 x0 x1) x
    · exact fun x => tile_pay 20 640 (by decide) rfl inb_S1024x5000_S32x5000_640_0 inb_S32x1_S1x1_20_0 x3 (k0_pay3 x0 x1) x
    · exact fun x => tile_pay 19 608 (by decide) rfl inb_S1024x5000_S32x5000_608_0 inb_S32x1_S1x1_19_0 x3 (k0_pay3 x0 x1) x
    · exact fun x => tile_pay 18 576 (by decide) rfl inb_S1024x5000_S32x5000_576_0 inb_S32x1_S1x1_18_0 x3 (k0_pay3 x0 x1) x
    · exact fun x => tile_pay 17 544 (by decide) rfl inb_S1024x5000_S32x5000_544_0 inb_S32x1_S1x1_17_0 x3 (k0_pay3 x0 x1) x
    · exact fun x => tile_pay 16 512 (by decide) rfl inb_S1024x5000_S32x5000_512_0 inb_S32x1_S1x1_16_0 x3 (k0_pay3 x0 x1) x
    · exact fun x => tile_pay 15 480 (by decide) rfl inb_S1024x5000_S32x5000_480_0 inb_S32x1_S1x1_15_0 x3 (k0_pay3 x0 x1) x
    · exact fun x => tile_pay 14 448 (by decide) rfl inb_S1024x5000_S32x5000_448_0 inb_S32x1_S1x1_14_0 x3 (k0_pay3 x0 x1) x
    · exact fun x => tile_pay 13 416 (by decide) rfl inb_S1024x5000_S32x5000_416_0 inb_S32x1_S1x1_13_0 x3 (k0_pay3 x0 x1) x
    · exact fun x => tile_pay 12 384 (by decide) rfl inb_S1024x5000_S32x5000_384_0 inb_S32x1_S1x1_12_0 x3 (k0_pay3 x0 x1) x
    · exact fun x => tile_pay 11 352 (by decide) rfl inb_S1024x5000_S32x5000_352_0 inb_S32x1_S1x1_11_0 x3 (k0_pay3 x0 x1) x
    · exact fun x => tile_pay 10 320 (by decide) rfl inb_S1024x5000_S32x5000_320_0 inb_S32x1_S1x1_10_0 x3 (k0_pay3 x0 x1) x
    · exact fun x => tile_pay 9 288 (by decide) rfl inb_S1024x5000_S32x5000_288_0 inb_S32x1_S1x1_9_0 x3 (k0_pay3 x0 x1) x
    · exact fun x => tile_pay 8 256 (by decide) rfl inb_S1024x5000_S32x5000_256_0 inb_S32x1_S1x1_8_0 x3 (k0_pay3 x0 x1) x
    · exact fun x => tile_pay 7 224 (by decide) rfl inb_S1024x5000_S32x5000_224_0 inb_S32x1_S1x1_7_0 x3 (k0_pay3 x0 x1) x
    · exact fun x => tile_pay 6 192 (by decide) rfl inb_S1024x5000_S32x5000_192_0 inb_S32x1_S1x1_6_0 x3 (k0_pay3 x0 x1) x
    · exact fun x => tile_pay 5 160 (by decide) rfl inb_S1024x5000_S32x5000_160_0 inb_S32x1_S1x1_5_0 x3 (k0_pay3 x0 x1) x
    · exact fun x => tile_pay 4 128 (by decide) rfl inb_S1024x5000_S32x5000_128_0 inb_S32x1_S1x1_4_0 x3 (k0_pay3 x0 x1) x
    · exact fun x => tile_pay 3 96 (by decide) rfl inb_S1024x5000_S32x5000_96_0 inb_S32x1_S1x1_3_0 x3 (k0_pay3 x0 x1) x
    · exact fun x => tile_pay 2 64 (by decide) rfl inb_S1024x5000_S32x5000_64_0 inb_S32x1_S1x1_2_0 x3 (k0_pay3 x0 x1) x
    · exact fun x => tile_pay 1 32 (by decide) rfl inb_S1024x5000_S32x5000_32_0 inb_S32x1_S1x1_1_0 x3 (k0_pay3 x0 x1) x
    · exact fun x => tile_pay 0 0 (by decide) rfl inb_S1024x5000_S32x5000_0_0 inb_S32x1_S1x1_0_0 x3 (k0_pay3 x0 x1) x
  · exact View.cover_of_tiledL _ S32x5000.size (by sl_kernel_rfl)

end Cert.KernelIdeal.Pieces
end
-- ==== Proof.Blocks.lean ====
/-
  The input blocks of a grid point, and the arrays the host computes before the launch, at coordinates.

  Point g reads rows 5000 g .. 5000 g + 4999 of the node features, the whole direction matrix, entries
  5000 g .. 5000 g + 4999 of the segment numbers (laid out [10, 5000, 1] by the host), and the whole column
  of thresholds, which the host has multiplied by 100.
-/
import proofs.«110302_g1803886264527_cont_8to1_34_14_alg».proof.Proof.Gen.KernelIdeal.Frame
import Idealize.ShloMosaic.Lib.Pipeline.Value
import Idealize.ShloMosaic.Lib.ValueIdx
import Idealize.ShloMosaic.Lib.StableHlo.Run

noncomputable section
open Idealize.ShloMosaic Idealize.ShloMosaic.TcCoe Idealize.SL.Sem
namespace Cert.KernelIdeal.Blocks
open Cert.KernelIdeal Cert.KernelIdeal.Gen Idealize.ShloMosaic.ValueIdx

variable (m : (ℓ : Loc nD τ sig) → Buf (Elt Ideal) ℓ)

theorem lt10 (t : Fin cfg0.N) : t.val < 10 := lt_of_lt_of_eq t.isLt (show cfg0.N = 10 from N_0)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- Row j of point t's feature block is row 5000 t + j of the features. -/
theorem iblk0_apply (c : Dev nD) (t : Fin cfg0.N) (j : Fin 5000) (k : Fin 128) :
    (iblk m c 0 t : Vec Ideal S5000x128 .f32) (ix2 j k)
      = m ((c : Thread nD τ).loc main_arg0) (ix2 (⟨5000 * t.val + j.val, by have := lt10 t; omega⟩ : Fin 50000) k) := by
  unfold iblk
  rw [View.read_apply]
  show V m c main_arg0 _ = _
  rw [V_main_arg0]
  congr 1
  funext a
  apply Fin.ext
  match a with
  | ⟨0, _⟩ => show win0_0.index t 0 * 5000 + 1 * j.val = 5000 * t.val + j.val; rw [(index0 t).1]; omega
  | ⟨1, _⟩ => show win0_0.index t 1 * 128 + 1 * k.val = k.val; rw [(index0 t).2]; omega

/-- Every point's direction block is the whole direction matrix. -/
theorem iblk1_apply (c : Dev nD) (t : Fin cfg0.N) (k : Fin 128) (u : Fin 32) :
    (iblk m c 1 t : Vec Ideal S128x32 .f32) (ix2 k u) = m ((c : Thread nD τ).loc main_arg2) (ix2 k u) := by
  unfold iblk
  rw [View.read_apply]
  show V m c main_arg2 _ = _
  rw [V_main_arg2]
  congr 1
  funext a
  apply Fin.ext
  match a with
  | ⟨0, _⟩ => show win0_1.index t 0 * 128 + 1 * k.val = k.val; rw [(index1 t).1]; omega
  | ⟨1, _⟩ => show win0_1.index t 1 * 32 + 1 * u.val = u.val; rw [(index1 t).2]; omega

/-- The host's reshape of the segment numbers to [10, 5000, 1]. -/
theorem V_v3 (c : Dev nD) :
    (V m c main_call0_v3 : S10x5000x1.Idx → BitVec 32)
      = shapeCast S10x5000x1 (m ((c : Thread nD τ).loc main_arg1)) shapeCasts_S50000_S10x5000x1 := by
  show StableHlo.after hostOps0 (fun b => m (c, b)) (Proc.devRef .tc main_call0_v3) = _
  after_results
  rfl

/-- The host's column of thresholds times 100. -/
theorem V_v2 (c : Dev nD) :
    (V m c main_call0_v2 : S32x1.Idx → EReal)
      = mulf (broadcastInDim S32x1 ![] bcast_S_S32x1 (constant (F := Ideal) S_ .f32 0x42C80000#32))
          (shapeCast S32x1 (m ((c : Thread nD τ).loc main_arg3)) shapeCasts_S32x1x1_S32x1) := by
  show StableHlo.after hostOps0 (fun b => m (c, b)) (Proc.devRef .tc main_call0_v2) = _
  after_results
  rfl

/-- Entry j of point t's segment block is entry 5000 t + j of the segment numbers. -/
theorem iblk2_apply (c : Dev nD) (t : Fin cfg0.N) (j : Fin 5000) :
    (iblk m c 2 t : Vec Ideal S1x5000x1 .i32) (ix3 (0 : Fin 1) j (0 : Fin 1))
      = m ((c : Thread nD τ).loc main_arg1) (ix1 (⟨5000 * t.val + j.val, by have := lt10 t; omega⟩ : Fin 50000)) := by
  unfold iblk
  rw [View.read_apply]
  show V m c main_call0_v3 _ = _
  rw [V_v3]
  refine shapeCast_apply _ _ _ _ ?_
  show ((⟨1, ![50000]⟩ : Shape).rowMajor _).val = ((⟨3, ![10, 5000, 1]⟩ : Shape).rowMajor _).val
  rw [Shape.rowMajor_val_one, Shape.rowMajor_val_three]
  show 5000 * t.val + j.val = ((win0_2.index t 0 * 1 + 1 * 0) * 5000 + (win0_2.index t 1 * 5000 + 1 * j.val)) * 1 + (win0_2.index t 2 * 1 + 1 * 0)
  rw [(index2 t).1, (index2 t).2.1, (index2 t).2.2]
  omega

/-- Every point's threshold block is the host's column: entry s is 100 times threshold s. -/
theorem iblk3_apply (c : Dev nD) (t : Fin cfg0.N) (s : Fin 32) :
    (iblk m c 3 t : Vec Ideal S32x1 .f32) (ix2 s (0 : Fin 1))
      = Ideal.ofBits .f32 0x42C80000#32 * m ((c : Thread nD τ).loc main_arg3) (ix3 s (0 : Fin 1) (0 : Fin 1)) := by
  unfold iblk
  rw [View.read_apply]
  show V m c main_call0_v2 _ = _
  rw [V_v2]
  show Ideal.ofBits .f32 0x42C80000#32 * shapeCast S32x1 (m ((c : Thread nD τ).loc main_arg3)) shapeCasts_S32x1x1_S32x1 _ = _
  congr 1
  refine shapeCast_apply _ _ _ _ ?_
  show ((⟨3, ![32, 1, 1]⟩ : Shape).rowMajor _).val = ((⟨2, ![32, 1]⟩ : Shape).rowMajor _).val
  rw [Shape.rowMajor_val_three, Shape.rowMajor_val_two]
  show (s.val * 1 + 0) * 1 + 0 = (win0_3.index t 0 * 32 + 1 * s.val) * 1 + (win0_3.index t 1 * 1 + 1 * 0)
  rw [(index3 t).1, (index3 t).2]
  omega

end Cert.KernelIdeal.Blocks
end
-- ==== Proof.Reals.lean ====
/-
  Real-number facts both programs' elements reduce to.

  * the float patterns the programs spell (0, 1, 100, 200, 1/2) as the numbers they denote;
  * on real arguments the extended-real operations are the real ones: the quotient 1 / y for y ≠ 0,
    the exponential, the hyperbolic tangent;
  * the law that joins the two programs: the logistic function of 2u is (tanh u + 1) / 2, so
    1 / (1 + exp (-(200 (l - n)))) = 1/2 * (tanh (100 l - 100 n) + 1).
-/
import Idealize.ShloMosaic.PureOps.Ideal

noncomputable section

namespace Cert.Reals

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_100 : Ideal.ofBits .f32 0x42C80000#32 = ((100 : ℝ) : EReal) := by
  simp [Ideal.ofBits, Ideal.ieee, -EReal.coe_mul]; norm_num

theorem ofBits_200 : Ideal.ofBits .f32 0x43480000#32 = ((200 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The quotient of one by a nonzero real is the real reciprocal. -/
theorem div_one_coe {y : ℝ} (h : y ≠ 0) : Ideal.div ((1 : ℝ) : EReal) (y : EReal) = ((1 / y : ℝ) : EReal) := by
  rw [Ideal.div_coe h, ← EReal.coe_mul, one_mul]

theorem exp_coe (r : ℝ) : Ideal.exp (r : EReal) = ((Real.exp r : ℝ) : EReal) := rfl

theorem tanh_coe (r : ℝ) : Ideal.tanh (r : EReal) = ((Real.tanh r : ℝ) : EReal) := rfl

/-- The logistic function of 2u is (tanh u + 1) / 2. -/
theorem logistic_two_mul (u : ℝ) : 1 / (1 + Real.exp (-(2 * u))) = 1 / 2 * (Real.tanh u + 1) := by
  have ha : 0 < Real.exp u := Real.exp_pos u
  rw [Real.tanh_eq_sinh_div_cosh, Real.sinh_eq, Real.cosh_eq]
  have h1 : Real.exp (-(2 * u)) = (Real.exp u)⁻¹ * (Real.exp u)⁻¹ := by
    rw [← Real.exp_neg, ← Real.exp_add]; congr 1; ring
  rw [h1, Real.exp_neg]
  field_simp
  ring

/-- The two programs' elements agree: the reference's logistic of 200 (l - n) is half of the kernel's
    tanh (100 l - 100 n) plus one. -/
theorem logistic_200 (l n : ℝ) :
    1 / (1 + Real.exp (-(200 * (l - n)))) = 1 / 2 * (Real.tanh (100 * l - 100 * n) + 1) := by
  rw [← logistic_two_mul]; congr 3; ring

/-- The reference's element on reals: negate, exponential, add one, divide, all real. -/
theorem ref_elem (l n : ℝ) :
    Ideal.div ((1 : ℝ) : EReal) (((1 : ℝ) : EReal) + Ideal.exp (-(((200 : ℝ) : EReal) * ((l : EReal) - (n : EReal)))))
      = ((1 / (1 + Real.exp (-(200 * (l - n)))) : ℝ) : EReal) := by
  rw [← EReal.coe_sub, ← EReal.coe_mul, ← EReal.coe_neg, exp_coe, ← EReal.coe_add]
  exact div_one_coe (by positivity)

/-- The kernel's element on reals. -/
theorem ker_elem (l n : ℝ) :
    Ideal.tanh (((100 : ℝ) : EReal) * (l : EReal) - ((100 : ℝ) : EReal) * (n : EReal))
      = ((Real.tanh (100 * l - 100 * n) : ℝ) : EReal) := by
  rw [← EReal.coe_mul, ← EReal.coe_mul, ← EReal.coe_sub, tanh_coe]

end Cert.Reals

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.Steps.lean ====
/-
  One grid point's arithmetic at coordinates, on real entries.

  With the point's feature block Xb, the directions W, the threshold column C (= 100 L) real and the block's
  segment numbers Bb (integers):
  * the scaled projection b2 (u, j) = 100 * sum_k W k u * Xb j k;
  * the one-hot matrix oh (j, b) = 1 if b is node j's segment number, else 0;
  * the accumulator step: acc (r, b) + sum_j tanh (C (r / 32) - b2 (r % 32, j)) * oh (j, b);
  * the count step: cnt b + sum_j oh (j, b);
  * the output block: 1/2 * (acc (r, b) + cnt b) at (b, r).
-/
import proofs.«110302_g1803886264527_cont_8to1_34_14_alg».proof.Proof.Tile
import proofs.«110302_g1803886264527_cont_8to1_34_14_alg».proof.Proof.Reals
import proofs.«110302_g1803886264527_cont_8to1_34_14_alg».proof.Proof.LibRealEntries
import Idealize.ShloMosaic.Lib.Pipeline.Value
import Idealize.ShloMosaic.Lib.ValueIdx
import Idealize.ShloMosaic.PureOps.Ideal.Laws

noncomputable section
open Idealize.ShloMosaic
namespace Cert.KernelIdeal.Steps
open Cert.KernelIdeal Cert.KernelIdeal.Gen Cert.KernelIdeal.Tile Idealize.ShloMosaic.ValueIdx Cert.LibRealEntries

/-! ## The two matrix products as sums over the contracted coordinate -/

local notation "d1" => dot_S128x32_S5000x128_S32x5000_0_1_1_0_n_n
local notation "d2" => dot_S1024x5000_S5000x128_S1024x128_1_0_0_1_n_n

theorem d1_lhs0 (i : S32x5000.Idx) (q : (d1).contr.Idx) : ((d1).lhsIdx i q 0).val = (q ⟨0, by decide⟩).val :=
  (d1).lhsIdx_val_of_single rfl i q
theorem d1_lhs1 (i : S32x5000.Idx) (q : (d1).contr.Idx) : ((d1).lhsIdx i q 1).val = (i 0).val := by
  unfold DotDims.lhsIdx
  rw [dif_neg (show ¬(1 : Fin S128x32.rank) ∈ (d1).lhsBatch by decide), dif_pos (show (1 : Fin S128x32.rank) ∈ (d1).lhsNonContracting by decide)]
  rfl
theorem d1_rhs0 (i : S32x5000.Idx) (q : (d1).contr.Idx) : ((d1).rhsIdx i q 0).val = (i 1).val := by
  unfold DotDims.rhsIdx
  rw [dif_neg (show ¬(0 : Fin S5000x128.rank) ∈ (d1).rhsBatch by decide), dif_pos (show (0 : Fin S5000x128.rank) ∈ (d1).rhsNonContracting by decide)]
  rfl
theorem d1_rhs1 (i : S32x5000.Idx) (q : (d1).contr.Idx) : ((d1).rhsIdx i q 1).val = (q ⟨0, by decide⟩).val :=
  (d1).rhsIdx_val_of_single rfl i q

/-- The transposed projection: entry (u, j) of W^T Xb^T is the sum over k of W (k, u) * Xb (j, k). -/
theorem matmul1_apply (lhs : FVec Ideal S128x32 .f32) (rhs : FVec Ideal S5000x128 .f32) (u : Fin 32) (j : Fin 5000) :
    matmul d1 none lhs rhs (constant S32x5000 .f32 0x00000000#32) (ix2 u j)
      = ∑ k : Fin 128, lhs (ix2 k u) * rhs (ix2 j k) := by
  simp only [matmul]
  rw [Ideal.matmul_constant_zero_apply, ← Equiv.sum_comp (ValueIdx.contrEquiv1 d1 128 rfl rfl).symm]
  refine Finset.sum_congr rfl fun k _ => ?_
  have hk := ValueIdx.contrEquiv1_symm_val d1 128 rfl rfl k
  have el : (d1).lhsIdx (ix2 u j) ((ValueIdx.contrEquiv1 d1 128 rfl rfl).symm k) = ix2 k u := funext fun a => Fin.ext (by
    match a with
    | ⟨0, _⟩ => exact (d1_lhs0 _ _).trans hk
    | ⟨1, _⟩ => exact d1_lhs1 _ _)
  have er : (d1).rhsIdx (ix2 u j) ((ValueIdx.contrEquiv1 d1 128 rfl rfl).symm k) = ix2 j k := funext fun a => Fin.ext (by
    match a with
    | ⟨0, _⟩ => exact d1_rhs0 _ _
    | ⟨1, _⟩ => exact (d1_rhs1 _ _).trans hk)
  rw [el, er]

theorem d2_lhs0 (i : S1024x128.Idx) (q : (d2).contr.Idx) : ((d2).lhsIdx i q 0).val = (i 0).val := by
  unfold DotDims.lhsIdx
  rw [dif_neg (show ¬(0 : Fin S1024x5000.rank) ∈ (d2).lhsBatch by decide), dif_pos (show (0 : Fin S1024x5000.rank) ∈ (d2).lhsNonContracting by decide)]
  rfl
theorem d2_lhs1 (i : S1024x128.Idx) (q : (d2).contr.Idx) : ((d2).lhsIdx i q 1).val = (q ⟨0, by decide⟩).val :=
  (d2).lhsIdx_val_of_single rfl i q
theorem d2_rhs0 (i : S1024x128.Idx) (q : (d2).contr.Idx) : ((d2).rhsIdx i q 0).val = (q ⟨0, by decide⟩).val :=
  (d2).rhsIdx_val_of_single rfl i q
theorem d2_rhs1 (i : S1024x128.Idx) (q : (d2).contr.Idx) : ((d2).rhsIdx i q 1).val = (i 1).val := by
  unfold DotDims.rhsIdx
  rw [dif_neg (show ¬(1 : Fin S5000x128.rank) ∈ (d2).rhsBatch by decide), dif_pos (show (1 : Fin S5000x128.rank) ∈ (d2).rhsNonContracting by decide)]
  rfl

/-- The segment product: entry (r, b) of T O is the sum over j of T (r, j) * O (j, b). -/
theorem matmul2_apply (lhs : FVec Ideal S1024x5000 .f32) (rhs : FVec Ideal S5000x128 .f32) (r : Fin 1024) (b : Fin 128) :
    matmul d2 none lhs rhs (constant S1024x128 .f32 0x00000000#32) (ix2 r b)
      = ∑ j : Fin 5000, lhs (ix2 r j) * rhs (ix2 j b) := by
  simp only [matmul]
  rw [Ideal.matmul_constant_zero_apply, ← Equiv.sum_comp (ValueIdx.contrEquiv1 d2 5000 rfl rfl).symm]
  refine Finset.sum_congr rfl fun k _ => ?_
  have hk := ValueIdx.contrEquiv1_symm_val d2 5000 rfl rfl k
  have el : (d2).lhsIdx (ix2 r b) ((ValueIdx.contrEquiv1 d2 5000 rfl rfl).symm k) = ix2 r k := funext fun a => Fin.ext (by
    match a with
    | ⟨0, _⟩ => exact d2_lhs0 _ _
    | ⟨1, _⟩ => exact (d2_lhs1 _ _).trans hk)
  have er : (d2).rhsIdx (ix2 r b) ((ValueIdx.contrEquiv1 d2 5000 rfl rfl).symm k) = ix2 k b := funext fun a => Fin.ext (by
    match a with
    | ⟨0, _⟩ => exact (d2_rhs0 _ _).trans hk
    | ⟨1, _⟩ => exact d2_rhs1 _ _)
  rw [el, er]

/-! ## The scaled projection -/

theorem b2_apply (x0 : Vec Ideal S5000x128 .f32) (x1 : Vec Ideal S128x32 .f32)
    (Xb : Fin 5000 → Fin 128 → ℝ) (W : Fin 128 → Fin 32 → ℝ)
    (hx0 : ∀ j k, x0 (ix2 j k) = ((Xb j k : ℝ) : EReal)) (hx1 : ∀ k u, x1 (ix2 k u) = ((W k u : ℝ) : EReal))
    (u : Fin 32) (j : Fin 5000) :
    k0_pay3 x0 x1 (ix2 u j) = ((100 * ∑ k : Fin 128, W k u * Xb j k : ℝ) : EReal) := by
  unfold k0_pay3
  show Ideal.ofBits .f32 0x42C80000#32 * matmul d1 none x1 x0 (constant S32x5000 .f32 0x00000000#32) (ix2 u j) = _
  rw [matmul1_apply, Cert.Reals.ofBits_100, EReal.coe_mul, coe_sum]
  congr 1
  refine Finset.sum_congr rfl fun k _ => ?_
  rw [hx1, hx0, EReal.coe_mul]

/-! ## The tanh tile -/

theorem TH_apply (x3 : Vec Ideal S32x1 .f32) (v7 : FVec Ideal S32x5000 .f32) (C : Fin 32 → ℝ) (P : Fin 32 → Fin 5000 → ℝ)
    (hx3 : ∀ s, x3 (ix2 s (0 : Fin 1)) = ((C s : ℝ) : EReal)) (hv7 : ∀ u j, v7 (ix2 u j) = ((P u j : ℝ) : EReal))
    (r : Fin 1024) (j : Fin 5000) :
    TH x3 v7 (ix2 r j)
      = ((Real.tanh (C ⟨r.val / 32, by have := r.isLt; omega⟩ - P ⟨r.val % 32, Nat.mod_lt _ (by norm_num)⟩ j) : ℝ) : EReal) := by
  unfold TH
  show Ideal.tanh (x3 (ix2 ⟨r.val / 32, _⟩ 0) - v7 (ix2 ⟨r.val % 32, _⟩ j)) = _
  rw [hx3, hv7, ← EReal.coe_sub, Cert.Reals.tanh_coe]

/-! ## The one-hot matrix -/

/-- Comparing two integers as reals and reading the answer back as a number gives the indicator of equality. -/
theorem onehot_scalar (a c : ℤ) :
    Scalar.sitofp (F := Ideal) .f32 (BitVec.setWidth 32 (Ideal.cmp .oeq ((a : ℝ) : EReal) ((c : ℝ) : EReal)))
      = (((if c = a then 1 else 0 : ℝ)) : EReal) := by
  show ((((BitVec.setWidth 32 (Ideal.cmp .oeq ((a : ℝ) : EReal) ((c : ℝ) : EReal))).toInt : ℤ) : ℝ) : EReal) = _
  unfold Ideal.cmp
  by_cases h : c = a
  · subst h
    simp
  · have hne : ¬ (((a : ℝ) : EReal) = ((c : ℝ) : EReal)) := fun e =>
      h (by exact_mod_cast (EReal.coe_eq_coe_iff.mp e).symm)
    rw [if_neg h]
    simp only [hne, decide_false]
    simp

theorem toInt_ofNat_small (b : Fin 128) : (BitVec.ofNat 32 b.val).toInt = (b.val : ℤ) := by
  have h128 := b.isLt
  have hm : b.val % 2 ^ 32 = b.val := Nat.mod_eq_of_lt (by omega)
  rw [BitVec.toInt_eq_toNat_cond, BitVec.toNat_ofNat, hm, if_pos (by omega)]

theorem oh_apply (x2 : Vec Ideal S1x5000x1 .i32) (j : Fin 5000) (b : Fin 128) :
    k0_pay40 (F := Ideal) x2 (ix2 j b)
      = (((if (x2 (ix3 (0 : Fin 1) j (0 : Fin 1))).toInt = (b.val : ℤ) then 1 else 0 : ℝ)) : EReal) := by
  unfold k0_pay40
  show Scalar.sitofp (F := Ideal) .f32 (BitVec.setWidth 32 (Ideal.cmp .oeq
      (Scalar.sitofp (F := Ideal) .f32 (iota .tc S5000x128 32 [1] iota_S5000x128_d1_w32 (ix2 j b)))
      (broadcastTo S5000x128 (sitofp (F := Ideal) .f32 (shapeCast S5000x1 x2 shapeCasts_S1x5000x1_S5000x1)) broadcasts_S5000x1_S5000x128 (ix2 j b)))) = _
  rw [iota_single_apply, broadcastTo_apply _ _ (ix2 j b) (ix2 j (0 : Fin 1)) (fun a => by
    match a with
    | ⟨0, _⟩ => show j.val = if (5000 : ℕ) = 1 then 0 else j.val; rw [if_neg (by decide)]
    | ⟨1, _⟩ => show (0 : ℕ) = if (1 : ℕ) = 1 then 0 else b.val; rw [if_pos rfl])]
  show Scalar.sitofp (F := Ideal) .f32 (BitVec.setWidth 32 (Ideal.cmp .oeq
      (((BitVec.ofNat 32 b.val).toInt : ℝ) : EReal)
      ((((shapeCast S5000x1 x2 shapeCasts_S1x5000x1_S5000x1 (ix2 j (0 : Fin 1))).toInt : ℝ)) : EReal))) = _
  rw [shapeCast_apply x2 shapeCasts_S1x5000x1_S5000x1 (ix2 j (0 : Fin 1)) (ix3 (0 : Fin 1) j (0 : Fin 1)) (by
    show ((⟨3, ![1, 5000, 1]⟩ : Shape).rowMajor _).val = ((⟨2, ![5000, 1]⟩ : Shape).rowMajor _).val
    rw [Shape.rowMajor_val_three, Shape.rowMajor_val_two]
    show (0 * 5000 + j.val) * 1 + 0 = j.val * 1 + 0
    omega), toInt_ofNat_small]
  exact onehot_scalar _ _

/-! ## The accumulator step -/

/-- The accumulator at (r, b) after the point: what it held plus the sum over the block's nodes j of
    tanh (C (r / 32) - 100 * sum_k W k (r % 32) * Xb j k) times the indicator "node j is in segment b". -/
theorem acc_apply (x0 : Vec Ideal S5000x128 .f32) (x1 : Vec Ideal S128x32 .f32) (x2 : Vec Ideal S1x5000x1 .i32)
    (x3 : Vec Ideal S32x1 .f32) (xs0 : Vec Ideal S1024x128 .f32)
    (Xb : Fin 5000 → Fin 128 → ℝ) (W : Fin 128 → Fin 32 → ℝ) (C : Fin 32 → ℝ)
    (hx0 : ∀ j k, x0 (ix2 j k) = ((Xb j k : ℝ) : EReal)) (hx1 : ∀ k u, x1 (ix2 k u) = ((W k u : ℝ) : EReal))
    (hx3 : ∀ s, x3 (ix2 s (0 : Fin 1)) = ((C s : ℝ) : EReal))
    (a : ℝ) (r : Fin 1024) (b : Fin 128) (hxs : xs0 (ix2 r b) = ((a : ℝ) : EReal)) :
    k0_pay41 x2 xs0 (TH x3 (k0_pay3 x0 x1)) (ix2 r b)
      = ((a + ∑ j : Fin 5000,
          Real.tanh (C ⟨r.val / 32, by have := r.isLt; omega⟩
            - 100 * ∑ k : Fin 128, W k ⟨r.val % 32, Nat.mod_lt _ (by norm_num)⟩ * Xb j k)
          * (if (x2 (ix3 (0 : Fin 1) j (0 : Fin 1))).toInt = (b.val : ℤ) then 1 else 0) : ℝ) : EReal) := by
  unfold k0_pay41
  rw [shapeCast_self]
  show xs0 (ix2 r b) + matmul d2 none (TH x3 (k0_pay3 x0 x1)) (k0_pay40 x2) (constant S1024x128 .f32 0x00000000#32) (ix2 r b) = _
  rw [matmul2_apply, hxs, EReal.coe_add, coe_sum]
  refine congrArg (fun z => ((a : ℝ) : EReal) + z) ?_
  refine Finset.sum_congr rfl fun j _ => ?_
  rw [TH_apply x3 _ C (fun u j => 100 * ∑ k : Fin 128, W k u * Xb j k) hx3 (b2_apply x0 x1 Xb W hx0 hx1), oh_apply,
    EReal.coe_mul]

/-- The zero block the first point stores into the accumulator. -/
theorem zero_acc_apply (i : S1024x128.Idx) : k0_pay1 (F := Ideal) i = ((0 : ℝ) : EReal) := by
  unfold k0_pay1
  rw [shapeCast_self]
  exact Cert.Reals.ofBits_zero

/-! ## The count step -/

/-- Row 0 of the counts at b after the point: what it held plus the number of the block's nodes in segment b. -/
theorem cnt_apply (x2 : Vec Ideal S1x5000x1 .i32) (prev : Vec Ideal S1x128 .f32) (p : ℝ) (b : Fin 128)
    (hp : prev (ix2 (0 : Fin 1) b) = ((p : ℝ) : EReal)) :
    k0_pay42 x2 prev (ix2 (0 : Fin 1) b)
      = ((p + ∑ j : Fin 5000, (if (x2 (ix3 (0 : Fin 1) j (0 : Fin 1))).toInt = (b.val : ℤ) then 1 else 0 : ℝ) : ℝ) : EReal) := by
  unfold k0_pay42
  rw [shapeCast_self]
  show prev (ix2 (0 : Fin 1) b) + shapeCast S1x128 (multiReduction .add [0] S128 (k0_pay40 (F := Ideal) x2) 0x00000000#32
      reduces_S5000x128_S128 (.inl rfl) rfl) shapeCasts_S128_S1x128 (ix2 (0 : Fin 1) b) = _
  rw [shapeCast_apply _ shapeCasts_S128_S1x128 (ix2 (0 : Fin 1) b) (ix1 b) (by
    show ((⟨1, ![128]⟩ : Shape).rowMajor _).val = ((⟨2, ![1, 128]⟩ : Shape).rowMajor _).val
    rw [Shape.rowMajor_val_one, Shape.rowMajor_val_two]
    show b.val = 0 * 128 + b.val
    omega), hp, EReal.coe_add, coe_sum]
  refine congrArg (fun z => ((p : ℝ) : EReal) + z) ?_
  refine (Ideal.multiReduction_add_single (k0_pay40 (F := Ideal) x2) 0x00000000#32 reduces_S5000x128_S128 (.inl rfl) rfl (ix1 b)).trans ?_
  show (∑ j : Fin 5000, k0_pay40 (F := Ideal) x2 (reduces_S5000x128_S128.lift (ix1 b) j)) = _
  refine Finset.sum_congr rfl fun (j : Fin 5000) _ => ?_
  have e : reduces_S5000x128_S128.lift (ix1 b) j = ix2 j b := funext fun a => Fin.ext (by
    match a with
    | ⟨0, _⟩ => rfl
    | ⟨1, _⟩ => rfl)
  rw [e, oh_apply]

/-- The zero block the first point stores into the counts, read through row 0. -/
theorem zero_cnt_apply (i : S8x128.Idx) : k0_pay2 (F := Ideal) i = ((0 : ℝ) : EReal) := by
  unfold k0_pay2
  rw [shapeCast_self]
  exact Cert.Reals.ofBits_zero

/-! ## The output block -/

/-- The output block at (b, r): half of (the accumulator at (r, b) plus the count of b). -/
theorem out_apply (acc : Vec Ideal S1024x128 .f32) (cnt : Vec Ideal S1x128 .f32) (a p : ℝ) (b : Fin 128) (r : Fin 1024)
    (ha : acc (ix2 r b) = ((a : ℝ) : EReal)) (hp : cnt (ix2 (0 : Fin 1) b) = ((p : ℝ) : EReal)) :
    k0_pay43 acc cnt (ix2 b r) = ((1 / 2 * (a + p) : ℝ) : EReal) := by
  unfold k0_pay43
  show Ideal.ofBits .f32 0x3F000000#32 * (transpose S128x1024 [1, 0] acc transposes_S1024x128_p1_0_S128x1024 (ix2 b r)
      + broadcastTo S128x1024 (transpose S128x1 [1, 0] cnt transposes_S1x128_p1_0_S128x1) broadcasts_S128x1_S128x1024 (ix2 b r)) = _
  rw [transpose_apply [1, 0] acc transposes_S1024x128_p1_0_S128x1024 (ix2 b r) (ix2 r b) (fun c => by
      match c with
      | ⟨0, _⟩ => rfl
      | ⟨1, _⟩ => rfl),
    broadcastTo_apply _ broadcasts_S128x1_S128x1024 (ix2 b r) (ix2 b (0 : Fin 1)) (fun c => by
      match c with
      | ⟨0, _⟩ => show b.val = if (128 : ℕ) = 1 then 0 else b.val; rw [if_neg (by decide)]
      | ⟨1, _⟩ => show (0 : ℕ) = if (1 : ℕ) = 1 then 0 else r.val; rw [if_pos rfl]),
    transpose_apply [1, 0] cnt transposes_S1x128_p1_0_S128x1 (ix2 b (0 : Fin 1)) (ix2 (0 : Fin 1) b) (fun c => by
      match c with
      | ⟨0, _⟩ => rfl
      | ⟨1, _⟩ => rfl),
    ha, hp, Cert.Reals.ofBits_half, ← EReal.coe_add, ← EReal.coe_mul]

end Cert.KernelIdeal.Steps
end
-- ==== Proof.Spec.lean ====
/-
  The specification both programs meet, on real numbers.

  For node features X : [50000, 128], directions W : [128, 32], thresholds L : [32] and segment numbers
  B : [50000] (integers), the result at segment b, step s, direction t is the sum, over the nodes i whose
  segment number is b, of the logistic function of 200 * (L s - (X W) i t). A node whose segment number is
  outside 0 .. 127 contributes to no segment.
-/
import Idealize.ShloMosaic.PureOps.Ideal
import Idealize.ShloMosaic.Lib.ValueIdx

noncomputable section

namespace Cert.Spec

/-- Node i projected on direction t: the (i, t) entry of X W. -/
def proj (X : Fin 50000 → Fin 128 → ℝ) (W : Fin 128 → Fin 32 → ℝ) (i : Fin 50000) (t : Fin 32) : ℝ :=
  ∑ k : Fin 128, X i k * W k t

/-- The logistic bump of node i at step s and direction t. -/
def bump (X : Fin 50000 → Fin 128 → ℝ) (W : Fin 128 → Fin 32 → ℝ) (L : Fin 32 → ℝ) (i : Fin 50000) (s t : Fin 32) : ℝ :=
  1 / (1 + Real.exp (-(200 * (L s - proj X W i t))))

/-- The result: per segment b the sum of the bumps of its nodes. -/
def ect (X : Fin 50000 → Fin 128 → ℝ) (W : Fin 128 → Fin 32 → ℝ) (L : Fin 32 → ℝ) (B : Fin 50000 → ℤ)
    (b : Fin 128) (s t : Fin 32) : ℝ :=
  ∑ i : Fin 50000, if B i = (b.val : ℤ) then bump X W L i s t else 0

/-! ## The kernel's arrangement of the same sum

The kernel walks the nodes in 10 blocks of 5000. Per block it adds, for every (s, t) and segment b, the sum over the
block's nodes of tanh (100 L s - 100 (X W) i t) times the indicator "node i is in segment b", and counts the block's
nodes per segment; at the end it returns half of (the tanh sums plus the counts). -/

/-- The kernel's tanh term of node i. -/
def tterm (X : Fin 50000 → Fin 128 → ℝ) (W : Fin 128 → Fin 32 → ℝ) (L : Fin 32 → ℝ) (i : Fin 50000) (s t : Fin 32) : ℝ :=
  Real.tanh (100 * L s - 100 * ∑ k : Fin 128, W k t * X i k)

/-- Node j of block g: node number 5000 g + j. -/
def node (g : ℕ) (hg : g < 10) (j : Fin 5000) : Fin 50000 := ⟨5000 * g + j.val, by have := j.isLt; omega⟩

/-- Block g's contribution to the tanh sums. -/
def blockAcc (X : Fin 50000 → Fin 128 → ℝ) (W : Fin 128 → Fin 32 → ℝ) (L : Fin 32 → ℝ) (B : Fin 50000 → ℤ)
    (g : ℕ) (hg : g < 10) (s t : Fin 32) (b : Fin 128) : ℝ :=
  ∑ j : Fin 5000, tterm X W L (node g hg j) s t * (if B (node g hg j) = (b.val : ℤ) then 1 else 0)

/-- Block g's contribution to the counts. -/
def blockCnt (B : Fin 50000 → ℤ) (g : ℕ) (hg : g < 10) (b : Fin 128) : ℝ :=
  ∑ j : Fin 5000, if B (node g hg j) = (b.val : ℤ) then (1 : ℝ) else 0

/-- The tanh sums after blocks 0 .. n. -/
def accR (X : Fin 50000 → Fin 128 → ℝ) (W : Fin 128 → Fin 32 → ℝ) (L : Fin 32 → ℝ) (B : Fin 50000 → ℤ) :
    (n : ℕ) → n < 10 → Fin 32 → Fin 32 → Fin 128 → ℝ
  | 0, h, s, t, b => blockAcc X W L B 0 h s t b
  | n + 1, h, s, t, b => accR X W L B n (Nat.lt_of_succ_lt h) s t b + blockAcc X W L B (n + 1) h s t b

/-- The counts after blocks 0 .. n. -/
def cntR (B : Fin 50000 → ℤ) : (n : ℕ) → n < 10 → Fin 128 → ℝ
  | 0, h, b => blockCnt B 0 h b
  | n + 1, h, b => cntR B n (Nat.lt_of_succ_lt h) b + blockCnt B (n + 1) h b

/-- What the kernel returns. -/
def kernelOut (X : Fin 50000 → Fin 128 → ℝ) (W : Fin 128 → Fin 32 → ℝ) (L : Fin 32 → ℝ) (B : Fin 50000 → ℤ)
    (b : Fin 128) (s t : Fin 32) : ℝ :=
  1 / 2 * (accR X W L B 9 (by norm_num) s t b + cntR B 9 (by norm_num) b)

end Cert.Spec

end
-- ==== Proof.Invariant.lean ====
/-
  The accumulator and the counts after every grid point, on real inputs.

  When the features, the directions and the thresholds are real numbers, after point n the [1024, 128]
  accumulator holds at (r, b) the tanh sums of blocks 0 .. n for step r / 32, direction r % 32 and segment b,
  row 0 of the count buffer holds at b the number of nodes of blocks 0 .. n in segment b, and the last
  point's output block holds at (b, r) half of their sum: by induction on the point, each step read off the
  case's stores (Pieces.lean) at coordinates (Steps.lean) over the point's blocks (Blocks.lean).
-/
import proofs.«110302_g1803886264527_cont_8to1_34_14_alg».proof.Proof.Pieces
import proofs.«110302_g1803886264527_cont_8to1_34_14_alg».proof.Proof.Blocks
import proofs.«110302_g1803886264527_cont_8to1_34_14_alg».proof.Proof.Steps
import proofs.«110302_g1803886264527_cont_8to1_34_14_alg».proof.Proof.Spec

noncomputable section
open Idealize.ShloMosaic Idealize.ShloMosaic.TcCoe Idealize.SL.Sem
namespace Cert.KernelIdeal.Inv
open Cert.KernelIdeal Cert.KernelIdeal.Gen Cert.KernelIdeal.Tile Cert.KernelIdeal.Pieces Cert.KernelIdeal.Blocks
  Cert.KernelIdeal.Steps Idealize.ShloMosaic.ValueIdx Cert.Spec

variable (m : (ℓ : Loc nD τ sig) → Buf (Elt Ideal) ℓ) (c : Dev nD)
variable (X : Fin 50000 → Fin 128 → ℝ) (W : Fin 128 → Fin 32 → ℝ) (L : Fin 32 → ℝ)

/-- The segment numbers, read signed. -/
def Bm : Fin 50000 → ℤ := fun i => (m ((c : Thread nD τ).loc main_arg1) (ix1 i)).toInt

/-- The kernel's result unfolded once: the tanh sums and counts after blocks 0 .. 8 plus block 9's. -/
theorem kernelOut_nine (X : Fin 50000 → Fin 128 → ℝ) (W : Fin 128 → Fin 32 → ℝ) (L : Fin 32 → ℝ) (B : Fin 50000 → ℤ)
    (b : Fin 128) (s t : Fin 32) (h8 : 8 < 10) (h9 : 8 + 1 < 10) :
    kernelOut X W L B b s t
      = 1 / 2 * ((accR X W L B 8 h8 s t b + blockAcc X W L B (8 + 1) h9 s t b) + (cntR B 8 h8 b + blockCnt B (8 + 1) h9 b)) := rfl

theorem lt10' {n : ℕ} (h : n < cfg0.N) : n < 10 := lt_of_lt_of_eq h (show cfg0.N = 10 from N_0)

section
variable (hX : ∀ i k, m ((c : Thread nD τ).loc main_arg0) (ix2 i k) = ((X i k : ℝ) : EReal))
variable (hW : ∀ k u, m ((c : Thread nD τ).loc main_arg2) (ix2 k u) = ((W k u : ℝ) : EReal))
variable (hL : ∀ s, m ((c : Thread nD τ).loc main_arg3) (ix3 s (0 : Fin 1) (0 : Fin 1)) = ((L s : ℝ) : EReal))

include hX in
theorem hx0 (t : Fin cfg0.N) (j : Fin 5000) (k : Fin 128) :
    (iblk m c 0 t : Vec Ideal S5000x128 .f32) (ix2 j k) = ((X (node t.val (lt10 t) j) k : ℝ) : EReal) := by
  rw [iblk0_apply]
  exact hX (node t.val (lt10 t) j) k

include hW in
theorem hx1 (t : Fin cfg0.N) (k : Fin 128) (u : Fin 32) :
    (iblk m c 1 t : Vec Ideal S128x32 .f32) (ix2 k u) = ((W k u : ℝ) : EReal) := by
  rw [iblk1_apply]
  exact hW k u

include hL in
theorem hx3 (t : Fin cfg0.N) (s : Fin 32) :
    (iblk m c 3 t : Vec Ideal S32x1 .f32) (ix2 s (0 : Fin 1)) = ((100 * L s : ℝ) : EReal) := by
  rw [iblk3_apply, hL, Cert.Reals.ofBits_100, ← EReal.coe_mul]

theorem hx2 (t : Fin cfg0.N) (j : Fin 5000) :
    ((iblk m c 2 t : Vec Ideal S1x5000x1 .i32) (ix3 (0 : Fin 1) j (0 : Fin 1))).toInt = Bm m c (node t.val (lt10 t) j) := by
  rw [iblk2_apply]
  rfl

/-- One point's sum over its block's nodes is the block's contribution to the tanh sums. -/
theorem block_acc_eq (t : Fin cfg0.N) (r : Fin 1024) (b : Fin 128) :
    (∑ j : Fin 5000,
        Real.tanh ((fun s => 100 * L s) ⟨r.val / 32, by have := r.isLt; omega⟩
          - 100 * ∑ k : Fin 128, W k ⟨r.val % 32, Nat.mod_lt _ (by norm_num)⟩ * (fun j k => X (node t.val (lt10 t) j) k) j k)
        * (if ((iblk m c 2 t : Vec Ideal S1x5000x1 .i32) (ix3 (0 : Fin 1) j (0 : Fin 1))).toInt = (b.val : ℤ) then 1 else 0))
      = blockAcc X W L (Bm m c) t.val (lt10 t) ⟨r.val / 32, by have := r.isLt; omega⟩ ⟨r.val % 32, Nat.mod_lt _ (by norm_num)⟩ b := by
  unfold blockAcc tterm
  refine Finset.sum_congr rfl fun j _ => ?_
  rw [hx2]

/-- and its count of nodes per segment the block's contribution to the counts. -/
theorem block_cnt_eq (t : Fin cfg0.N) (b : Fin 128) :
    (∑ j : Fin 5000, (if ((iblk m c 2 t : Vec Ideal S1x5000x1 .i32) (ix3 (0 : Fin 1) j (0 : Fin 1))).toInt = (b.val : ℤ) then 1 else 0 : ℝ))
      = blockCnt (Bm m c) t.val (lt10 t) b := by
  unfold blockCnt
  refine Finset.sum_congr rfl fun j _ => ?_
  rw [hx2]

/-- What the invariant says of the accumulator and of row 0 of the counts after point n. -/
def Holds (n : ℕ) (h : n < cfg0.N) : Prop :=
  (∀ (r : Fin 1024) (b : Fin 128), (outsAt0 m c n h).2.1 (ix2 r b)
      = ((accR X W L (Bm m c) n (lt10' h) ⟨r.val / 32, by have := r.isLt; omega⟩ ⟨r.val % 32, Nat.mod_lt _ (by norm_num)⟩ b : ℝ) : EReal))
  ∧ (∀ b : Fin 128, (outsAt0 m c n h).2.2 (ix2 (0 : Fin 8) b) = ((cntR (Bm m c) n (lt10' h) b : ℝ) : EReal))

include hX hW hL in
/-- The accumulator step at a point after the first, from the invariant at the point before. -/
theorem acc_step (t : Fin cfg0.N) (xs0 : Vec Ideal S1024x128 .f32) (a : ℝ) (r : Fin 1024) (b : Fin 128)
    (hxs : xs0 (ix2 r b) = ((a : ℝ) : EReal)) :
    k0_pay41 (iblk m c 2 t : Vec Ideal S1x5000x1 .i32) xs0
        (TH (iblk m c 3 t : Vec Ideal S32x1 .f32) (k0_pay3 (iblk m c 0 t : Vec Ideal S5000x128 .f32) (iblk m c 1 t : Vec Ideal S128x32 .f32))) (ix2 r b)
      = ((a + blockAcc X W L (Bm m c) t.val (lt10 t) ⟨r.val / 32, by have := r.isLt; omega⟩ ⟨r.val % 32, Nat.mod_lt _ (by norm_num)⟩ b : ℝ) : EReal) := by
  refine (acc_apply _ _ _ _ xs0 (fun j k => X (node t.val (lt10 t) j) k) W (fun s => 100 * L s)
    (hx0 m c X hX t) (hx1 m c W hW t) (hx3 m c L hL t) a r b hxs).trans ?_
  rw [block_acc_eq m c X W L t r b]

/-- The count step. -/
theorem cnt_step (t : Fin cfg0.N) (prev : Vec Ideal S1x128 .f32) (p : ℝ) (b : Fin 128)
    (hp : prev (ix2 (0 : Fin 1) b) = ((p : ℝ) : EReal)) :
    k0_pay42 (iblk m c 2 t : Vec Ideal S1x5000x1 .i32) prev (ix2 (0 : Fin 1) b)
      = ((p + blockCnt (Bm m c) t.val (lt10 t) b : ℝ) : EReal) := by
  refine (cnt_apply _ prev p b hp).trans ?_
  rw [block_cnt_eq m c t b]

include hX hW hL in
theorem holds : ∀ (n : ℕ) (h : n < cfg0.N), Holds m c X W L n h
  | 0, h => by
    have e : outsAt0 m c 0 h = _ := outsAt0_A m c ⟨0, h⟩ rfl (by dsimp only; omega)
    unfold Holds
    rw [e]
    dsimp only
    refine ⟨fun r b => ?_, fun b => ?_⟩
    · rw [sA0]
      refine (acc_step m c X W L hX hW hL ⟨0, h⟩ _ 0 r b (zero_acc_apply _)).trans ?_
      show (((0 : ℝ) + blockAcc X W L (Bm m c) 0 _ _ _ b : ℝ) : EReal) = ((blockAcc X W L (Bm m c) 0 _ _ _ b : ℝ) : EReal)
      rw [zero_add]
    · rw [sA1]
      refine (cnt_step m c ⟨0, h⟩ _ 0 b (zero_cnt_apply _)).trans ?_
      show (((0 : ℝ) + blockCnt (Bm m c) 0 _ b : ℝ) : EReal) = ((blockCnt (Bm m c) 0 _ b : ℝ) : EReal)
      rw [zero_add]
  | n + 1, h => by
    have ih := holds n (Nat.lt_of_succ_lt h)
    have hN : n + 1 < 10 := lt10' h
    have h0 : ¬(⟨n + 1, h⟩ : Fin cfg0.N).val % 10 = 0 := by dsimp only; omega
    unfold Holds
    by_cases h9 : (⟨n + 1, h⟩ : Fin cfg0.N).val % 10 = 9
    · have e : outsAt0 m c (n + 1) h = _ := outsAt0_C m c ⟨n + 1, h⟩ h0 h9
      rw [e]
      dsimp only
      refine ⟨fun r b => ?_, fun b => ?_⟩
      · rw [sC0]
        exact acc_step m c X W L hX hW hL ⟨n + 1, h⟩ _ _ r b (ih.1 r b)
      · rw [sC1]
        refine cnt_step m c ⟨n + 1, h⟩ _ _ b ?_
        show (outsAt0 m c n _).2.2 (row0.emb (ix2 (0 : Fin 1) b)) = _
        rw [← row0_emb]
        exact ih.2 b
    · have e : outsAt0 m c (n + 1) h = _ := outsAt0_B m c ⟨n + 1, h⟩ h0 h9
      rw [e]
      dsimp only
      refine ⟨fun r b => ?_, fun b => ?_⟩
      · rw [sB0]
        exact acc_step m c X W L hX hW hL ⟨n + 1, h⟩ _ _ r b (ih.1 r b)
      · rw [sB1]
        refine cnt_step m c ⟨n + 1, h⟩ _ _ b ?_
        show (outsAt0 m c n _).2.2 (row0.emb (ix2 (0 : Fin 1) b)) = _
        rw [← row0_emb]
        exact ih.2 b

include hX hW hL in
/-- The output block the last point stores: at (b, r) the kernel's result for segment b, step r / 32 and
    direction r % 32. -/
theorem out_last (t : Fin cfg0.N) (h9 : t.val % 10 = 9) (b : Fin 128) (r : Fin 1024) :
    (outsAt0 m c t.val t.isLt).1 (ix2 b r)
      = ((kernelOut X W L (Bm m c) b ⟨r.val / 32, by have := r.isLt; omega⟩ ⟨r.val % 32, Nat.mod_lt _ (by norm_num)⟩ : ℝ) : EReal) := by
  obtain ⟨n, hn⟩ := t
  cases n with
  | zero => exact absurd h9 (by dsimp only; omega)
  | succ n =>
    have hN : n + 1 < 10 := lt10' hn
    have h0 : ¬(⟨n + 1, hn⟩ : Fin cfg0.N).val % 10 = 0 := by dsimp only; omega
    have ih := holds m c X W L hX hW hL n (Nat.lt_of_succ_lt hn)
    have key : (outsAt0 m c (n + 1) hn).1 (ix2 b r)
        = ((1 / 2 * ((accR X W L (Bm m c) n (lt10' (Nat.lt_of_succ_lt hn)) ⟨r.val / 32, by have := r.isLt; omega⟩ ⟨r.val % 32, Nat.mod_lt _ (by norm_num)⟩ b
              + blockAcc X W L (Bm m c) (n + 1) hN ⟨r.val / 32, by have := r.isLt; omega⟩ ⟨r.val % 32, Nat.mod_lt _ (by norm_num)⟩ b)
            + (cntR (Bm m c) n (lt10' (Nat.lt_of_succ_lt hn)) b + blockCnt (Bm m c) (n + 1) hN b)) : ℝ) : EReal) := by
      have e : outsAt0 m c (n + 1) hn = _ := outsAt0_C m c ⟨n + 1, hn⟩ h0 h9
      rw [e]
      dsimp only
      rw [oC4]
      exact out_apply _ _ _ _ b r
        (acc_step m c X W L hX hW hL ⟨n + 1, hn⟩ _ _ r b (ih.1 r b))
        (cnt_step m c ⟨n + 1, hn⟩ _ _ b (by
          show (outsAt0 m c n _).2.2 (row0.emb (ix2 (0 : Fin 1) b)) = _
          rw [← row0_emb]
          exact ih.2 b))
    have h8 : n = 8 := by dsimp only at h9; omega
    subst h8
    rw [key]
    exact congrArg (fun z : ℝ => (z : EReal)) (kernelOut_nine X W L (Bm m c) b _ _ _ _).symm

end

end Cert.KernelIdeal.Inv
end
-- ==== Proof.KernelValue.lean ====
/-
  The kernel's run, read: on real inputs the result array holds the kernel's sum.

  Only the last grid point writes the output block back, and that block is the whole [128, 1024] array; the host
  then views it as [128, 32, 32], entry (b, s, t) being entry (b, 32 s + t). So the result at (b, s, t) is
  the last point's output block at (b, 32 s + t): the kernel's result for segment b, step s, direction t.
-/
import proofs.«110302_g1803886264527_cont_8to1_34_14_alg».proof.Proof.Invariant
import Idealize.ShloMosaic.Lib.Pipeline.Value
import Idealize.ShloMosaic.Lib.StableHlo.Run

noncomputable section
open Idealize.ShloMosaic Idealize.ShloMosaic.TcCoe Idealize.SL.Sem
open Idealize.ShloMosaic.Pipeline (Dat)
namespace Cert.KernelIdeal.KValue
open Cert.KernelIdeal Cert.KernelIdeal.Gen Cert.KernelIdeal.Inv Idealize.ShloMosaic.ValueIdx Cert.Spec

variable (m : (ℓ : Loc nD τ sig) → Buf (Elt Ideal) ℓ) (ρ : Dev nD → PrngReg) (c : Dev nD)
variable (X : Fin 50000 → Fin 128 → ℝ) (W : Fin 128 → Fin 32 → ℝ) (L : Fin 32 → ℝ)

/-- The output array [128, 1024]: entry (b, r) is the kernel's result for segment b, step r / 32, direction r % 32. -/
def outArr (B : Fin 50000 → ℤ) : S128x1024.Idx → EReal := fun y =>
  ((kernelOut X W L B (y 0) ⟨(y 1).val / 32, by have := idx2_lt1 y; omega⟩ ⟨(y 1).val % 32, Nat.mod_lt _ (by norm_num)⟩ : ℝ) : EReal)

/-- The result array [128, 32, 32]. -/
def resArr (B : Fin 50000 → ℤ) : S128x32x32.Idx → EReal := fun y => ((kernelOut X W L B (y 0) (y 1) (y 2) : ℝ) : EReal)

section
variable (hX : ∀ i k, m ((c : Thread nD τ).loc main_arg0) (ix2 i k) = ((X i k : ℝ) : EReal))
variable (hW : ∀ k u, m ((c : Thread nD τ).loc main_arg2) (ix2 k u) = ((W k u : ℝ) : EReal))
variable (hL : ∀ s, m ((c : Thread nD τ).loc main_arg3) (ix3 s (0 : Fin 1) (0 : Fin 1)) = ((L s : ℝ) : EReal))

include hX hW hL in
/-- The one write-back, at the last point, writes the output array: its block is the whole array. -/
theorem flushed_eq (t : Fin cfg0.N) (hf : (cfg0.win 4).flush t = true) :
    (dats m 0 c).flushed 4 t = ((cfg0.win 4).blk t).view.read (Elt Ideal) (outArr X W L (Bm m c)) := by
  have hN : cfg0.N = 10 := N_0
  have h9 : t.val % 10 = 9 := (flush0_4 t).mp hf
  have ht : t.val = 9 := by have := t.isLt; omega
  have hout : (outsAt0 m c t.val t.isLt).1 = outArr X W L (Bm m c) := funext fun y => by
    obtain ⟨p, q, rfl⟩ : ∃ (p : Fin 128) (q : Fin 1024), y = ix2 p q := ⟨y 0, y 1, eq_ix2 y⟩
    exact out_last m c X W L hX hW hL t h9 p q
  obtain rfl : t = t0_9 := Fin.ext ht
  show (cfg0.win 4).cut (grid0.coords t0_9) ((dats m 0 c).after 4 t0_9) = _
  rw [after0_4, hout]
  have hz' : (fun a => win0_4.index t0_9 a * main_call0_v4.ty.shape.size a) = fun _ => 0 := funext fun a => by fin_cases a <;> decide +kernel
  exact (Memref.read_access_unit_zero (Elt Ideal) main_call0_v4 hz' (fun a => by rw [congrFun hz' a]; simp) (outArr X W L (Bm m c))).symm

include hX hW hL in
/-- So the output array ends at it: the last point's block covers the array. -/
theorem final_o : (dats m 0 c).arrAt 4 cfg0.N = outArr X W L (Bm m c) :=
  (dats m 0 c).arrAt_eq_of_cover 4 (outArr X W L (Bm m c)) (flushed_eq m c X W L hX hW hL) fun i =>
    ⟨t0_9, (flush0_4 t0_9).mpr rfl, by
      show i ∈ ((View.whole main_call0_v4).slice (win0_4.rect t0_9)).set
      rw [View.set_slice_whole, Rect.mem_set_unit]
      intro a
      have h0 : (i 0 : Nat) < 128 := (i 0).isLt
      have h1 : (i 1 : Nat) < 1024 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 128 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 1024 from by decide +kernel]; omega⟩

/-- The host's view of the output array as [128, 32, 32]. -/
theorem tail_eq : Pipeline.afterTail₀ cfgs (dats m) 0 (V0 m) [hostOps1] c main_v0
    = shapeCast S128x32x32 ((dats m 0 c).arrAt 4 cfg0.N) shapeCasts_S128x1024_S128x32x32 := by
  unfold Pipeline.afterTail₀
  show StableHlo.after hostOps1 _ (Proc.devRef .tc main_v0) = _
  after_results
  have hw := Pipeline.withArrays_arr (Val := Elt Ideal) spec0 launch0.win.arr_inj c (V0 m c) (fun w => (dats m 0 c).arrAt w cfg0.N) 4
  funext i
  show shapeCast S128x32x32 (Pipeline.withArrays spec0 c (V0 m c) (fun w => (dats m 0 c).arrAt w cfg0.N)
    (Proc.devRef .tc (Pipeline.arrRef spec0 4))) shapeCasts_S128x1024_S128x32x32 i = _
  rw [hw]

/-- Entry (b, s, t) of the [128, 32, 32] view is entry (b, 32 s + t) of the output array. -/
theorem view_apply (B : Fin 50000 → ℤ) :
    shapeCast S128x32x32 (outArr X W L B) shapeCasts_S128x1024_S128x32x32 = resArr X W L B := by
  funext y
  obtain ⟨b, s, t, rfl⟩ : ∃ (b : Fin 128) (s t : Fin 32), y = ix3 b s t := ⟨y 0, y 1, y 2, eq_ix3 y⟩
  rw [shapeCast_apply (outArr X W L B) shapeCasts_S128x1024_S128x32x32 (ix3 b s t)
    (ix2 b (⟨32 * s.val + t.val, by have := s.isLt; have := t.isLt; omega⟩ : Fin 1024)) (by
      show ((⟨2, ![128, 1024]⟩ : Shape).rowMajor _).val = ((⟨3, ![128, 32, 32]⟩ : Shape).rowMajor _).val
      rw [Shape.rowMajor_val_two, Shape.rowMajor_val_three]
      show b.val * 1024 + (32 * s.val + t.val) = (b.val * 32 + s.val) * 32 + t.val
      ring)]
  unfold outArr resArr
  have hs : (⟨(32 * s.val + t.val) / 32, by have := s.isLt; have := t.isLt; omega⟩ : Fin 32) = s :=
    Fin.ext (by have := t.isLt; show (32 * s.val + t.val) / 32 = s.val; omega)
  have ht : (⟨(32 * s.val + t.val) % 32, Nat.mod_lt _ (by norm_num)⟩ : Fin 32) = t :=
    Fin.ext (by have := t.isLt; show (32 * s.val + t.val) % 32 = t.val; omega)
  show ((kernelOut X W L B b ⟨(32 * s.val + t.val) / 32, _⟩ ⟨(32 * s.val + t.val) % 32, _⟩ : ℝ) : EReal)
    = ((kernelOut X W L B b s t : ℝ) : EReal)
  rw [hs, ht]

include hX hW hL in
/-- The result array after the run. -/
theorem result_eq : Pipeline.afterTail₀ cfgs (dats m) 0 (V0 m) [hostOps1] c main_v0 = resArr X W L (Bm m c) := by
  rw [tail_eq, final_o m c X W L hX hW hL, view_apply]

end

/-- The run, read: on every device whose inputs are real, the result array holds the kernel's sums; the
    arguments end unchanged. -/
theorem run (X : Dev nD → Fin 50000 → Fin 128 → ℝ) (W : Dev nD → Fin 128 → Fin 32 → ℝ) (L : Dev nD → Fin 32 → ℝ)
    (hX : ∀ (c : Dev nD) i k, m ((c : Thread nD τ).loc main_arg0) (ix2 i k) = ((X c i k : ℝ) : EReal))
    (hW : ∀ (c : Dev nD) k u, m ((c : Thread nD τ).loc main_arg2) (ix2 k u) = ((W c k u : ℝ) : EReal))
    (hL : ∀ (c : Dev nD) s, m ((c : Thread nD τ).loc main_arg3) (ix3 s (0 : Fin 1) (0 : Fin 1)) = ((L c s : ℝ) : EReal)) :
    θ_run defs (onTc (τ := τ) (main (F := Ideal))) ⟨m, fun _ => 0, ρ⟩ (fun r => ∀ c : Dev nD,
      r.2.mem ((c.tc : Thread nD τ).loc main_v0) = resArr (X c) (W c) (L c) (Bm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v0 (Pipeline.mem_restRefs_of main_v0 (by decide) (by decide))).trans
        (result_eq m c (X c) (W c) (L c) (hX c) (hW c) (hL c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.KValue
end
-- ==== Proof.LibSlabScatterSum.lean ====
/-
  An accumulating scatter of slabs is a segment sum.

  An operand of extents N × A × B receives E updates, each an A × B slab, update e going to the row whose number is
  the e-th entry of an index column read as a signed integer; an update whose row number is outside 0 .. N - 1 is
  dropped. This file proves: an update element lands at an operand index exactly when, on every axis, the window
  start plus the window coordinate is that index's coordinate; for the slab scatter, update element (e, a, b) lands
  at (n, a', b') exactly when the e-th row number is n, a = a' and b = b'; hence the scatter's element at (n, a, b)
  is the operand's element there plus the sum over e of the update element (e, a, b) when the e-th row number is n
  and 0 otherwise. Along the way: a sum over a rank-3 index set is the triple sum over its coordinates.
-/
import Idealize.ShloMosaic.Lib.ValueIdx

noncomputable section

open scoped BigOperators

namespace Cert.LibSlabScatterSum

open Idealize.ShloMosaic Idealize.ShloMosaic.ValueIdx

/-! ## The landing index of an update -/

/-- An update lands at `i` exactly when, on every axis, its window start plus its window coordinate is `i`'s
    coordinate (the sum is then in range because `i`'s coordinate is). -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · rintro rfl a
      exact (Int.toNat_of_nonneg (h a).1).symm
    · intro hi
      funext a
      apply Fin.ext
      show (d.start j idx a + (d.window j a : ℤ)).toNat = (i a).val
      rw [hi a]; rfl
  · constructor
    · intro h'; cases h'
    · intro hi
      exfalso
      apply h
      intro a
      rw [hi a]
      exact ⟨Int.natCast_nonneg _, by exact_mod_cast (i a).isLt⟩

/-- The slab scatter's dimension numbers: the one index component chooses the operand's row, the two other axes
    are the update's window. -/
abbrev slabDims (N A B E : ℕ) (wf : ScatterDims.WF (⟨3, ![N, A, B]⟩ : Shape) (⟨2, ![E, 1]⟩ : Shape) (⟨3, ![E, A, B]⟩ : Shape) [1, 2] [0] [0] 1) :
    ScatterDims (⟨3, ![N, A, B]⟩ : Shape) (⟨2, ![E, 1]⟩ : Shape) (⟨3, ![E, A, B]⟩ : Shape) where
  updateWindowDims := [1, 2]
  insertedWindowDims := [0]
  scatterDimsToOperandDims := [0]
  indexVectorDim := 1
  wf := wf

/-! Which of the three operand axes the index component names (axis 0 only) and which are window axes (1 and 2):
facts about lists of axis numbers, independent of the extents. -/
theorem mem_map0 : (0 : Fin 3) ∈ ([0] : List (Fin 3)) := by decide
theorem not_mem_map1 : ¬ (1 : Fin 3) ∈ ([0] : List (Fin 3)) := by decide
theorem not_mem_map2 : ¬ (2 : Fin 3) ∈ ([0] : List (Fin 3)) := by decide
theorem not_mem_kept0 : ¬ (0 : Fin 3) ∈ (List.finRange 3).filter (fun x : Fin 3 => decide (x ∉ ([0] : List (Fin 3)))) := by decide
theorem mem_kept1 : (1 : Fin 3) ∈ (List.finRange 3).filter (fun x : Fin 3 => decide (x ∉ ([0] : List (Fin 3)))) := by decide
theorem mem_kept2 : (2 : Fin 3) ∈ (List.finRange 3).filter (fun x : Fin 3 => decide (x ∉ ([0] : List (Fin 3)))) := by decide

section Slab

variable {N A B E w : ℕ} (wf : ScatterDims.WF (⟨3, ![N, A, B]⟩ : Shape) (⟨2, ![E, 1]⟩ : Shape) (⟨3, ![E, A, B]⟩ : Shape) [1, 2] [0] [0] 1)

/-- On the row axis the window starts at the row number of the update … -/
theorem start0 (e : Fin E) (a : Fin A) (b : Fin B) (idx : IVec (⟨2, ![E, 1]⟩ : Shape) w) :
    (slabDims N A B E wf).start (ix3 e a b) idx 0 = (idx (ix2 e 0)).toInt := by
  unfold ScatterDims.start
  rw [dif_pos (show (0 : Fin (⟨3, ![N, A, B]⟩ : Shape).rank) ∈ (slabDims N A B E wf).scatterDimsToOperandDims from mem_map0)]
  congr 2
  funext c
  apply Fin.ext
  match c with
  | ⟨0, _⟩ => rfl
  | ⟨1, _⟩ => rfl

/-- … and at zero on the two window axes. -/
theorem start1 (e : Fin E) (a : Fin A) (b : Fin B) (idx : IVec (⟨2, ![E, 1]⟩ : Shape) w) :
    (slabDims N A B E wf).start (ix3 e a b) idx 1 = 0 := by
  unfold ScatterDims.start
  rw [dif_neg (show ¬ (1 : Fin (⟨3, ![N, A, B]⟩ : Shape).rank) ∈ (slabDims N A B E wf).scatterDimsToOperandDims from not_mem_map1)]

theorem start2 (e : Fin E) (a : Fin A) (b : Fin B) (idx : IVec (⟨2, ![E, 1]⟩ : Shape) w) :
    (slabDims N A B E wf).start (ix3 e a b) idx 2 = 0 := by
  unfold ScatterDims.start
  rw [dif_neg (show ¬ (2 : Fin (⟨3, ![N, A, B]⟩ : Shape).rank) ∈ (slabDims N A B E wf).scatterDimsToOperandDims from not_mem_map2)]

/-- The window coordinate is zero on the row axis and the update's own coordinate on the two window axes. -/
theorem window0 (e : Fin E) (a : Fin A) (b : Fin B) : (slabDims N A B E wf).window (ix3 e a b) 0 = 0 := by
  unfold ScatterDims.window
  rw [dif_neg (show ¬ (0 : Fin (⟨3, ![N, A, B]⟩ : Shape).rank) ∈ (slabDims N A B E wf).sKept from not_mem_kept0)]

theorem window1 (e : Fin E) (a : Fin A) (b : Fin B) : (slabDims N A B E wf).window (ix3 e a b) 1 = a.val := by
  unfold ScatterDims.window
  rw [dif_pos (show (1 : Fin (⟨3, ![N, A, B]⟩ : Shape).rank) ∈ (slabDims N A B E wf).sKept from mem_kept1)]
  rfl

theorem window2 (e : Fin E) (a : Fin A) (b : Fin B) : (slabDims N A B E wf).window (ix3 e a b) 2 = b.val := by
  unfold ScatterDims.window
  rw [dif_pos (show (2 : Fin (⟨3, ![N, A, B]⟩ : Shape).rank) ∈ (slabDims N A B E wf).sKept from mem_kept2)]
  rfl

/-- Update (e, a, b) lands at `i` exactly when the e-th row number is `i`'s row and (a, b) are `i`'s two other
    coordinates. -/
theorem lands_iff (e : Fin E) (a : Fin A) (b : Fin B) (idx : IVec (⟨2, ![E, 1]⟩ : Shape) w) (i : (⟨3, ![N, A, B]⟩ : Shape).Idx) :
    (slabDims N A B E wf).resultIdx? (ix3 e a b) idx = some i ↔ (idx (ix2 e 0)).toInt = ((i 0).val : ℤ) ∧ i 1 = a ∧ i 2 = b := by
  rw [resultIdx?_eq_some_iff]
  constructor
  · intro h
    have h0 := h 0
    have h1 := h 1
    have h2 := h 2
    rw [start0, window0] at h0
    rw [start1, window1] at h1
    rw [start2, window2] at h2
    refine ⟨by simpa using h0, Fin.ext ?_, Fin.ext ?_⟩
    · have : (a.val : ℤ) = ((i 1).val : ℤ) := by simpa using h1
      exact (by exact_mod_cast this.symm)
    · have : (b.val : ℤ) = ((i 2).val : ℤ) := by simpa using h2
      exact (by exact_mod_cast this.symm)
  · rintro ⟨h0, h1, h2⟩ c
    match c with
    | ⟨0, _⟩ =>
      show (slabDims N A B E wf).start (ix3 e a b) idx 0 + (((slabDims N A B E wf).window (ix3 e a b) 0 : ℕ) : ℤ) = ((i 0).val : ℤ)
      rw [start0, window0, h0]; simp
    | ⟨1, _⟩ =>
      show (slabDims N A B E wf).start (ix3 e a b) idx 1 + (((slabDims N A B E wf).window (ix3 e a b) 1 : ℕ) : ℤ) = ((i 1).val : ℤ)
      rw [start1, window1, h1]; simp
    | ⟨2, _⟩ =>
      show (slabDims N A B E wf).start (ix3 e a b) idx 2 + (((slabDims N A B E wf).window (ix3 e a b) 2 : ℕ) : ℤ) = ((i 2).val : ℤ)
      rw [start2, window2, h2]; simp

end Slab

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A double sum whose terms vanish off one pair of coordinates is the term there. -/
theorem sum_pick {M : Type*} [AddCommMonoid M] {n1 n2 : Nat} (P : Prop) [Decidable P] (s0 : Fin n1) (t0 : Fin n2)
    (g : Fin n1 → Fin n2 → M) :
    (∑ s : Fin n1, ∑ t : Fin n2, if P ∧ s0 = s ∧ t0 = t then g s t else 0) = if P then g s0 t0 else 0 := by
  rw [Finset.sum_eq_single s0, Finset.sum_eq_single t0]
  · by_cases hP : P <;> simp [hP]
  · intro t _ ht
    rw [if_neg]
    rintro ⟨_, _, h⟩
    exact ht h.symm
  · intro h
    exact absurd (Finset.mem_univ _) h
  · intro s _ hs
    apply Finset.sum_eq_zero
    intro t _
    rw [if_neg]
    rintro ⟨_, h, _⟩
    exact hs h.symm
  · intro h
    exact absurd (Finset.mem_univ _) h

/-! ## The scatter as a segment sum -/

section Sum

variable {N A B E w : ℕ} (wf : ScatterDims.WF (⟨3, ![N, A, B]⟩ : Shape) (⟨2, ![E, 1]⟩ : Shape) (⟨3, ![E, A, B]⟩ : Shape) [1, 2] [0] [0] 1)

/-- The updates that land at `i`, summed: one term per update whose row number is `i`'s row. -/
theorem sum_lands {M : Type*} [AddCommMonoid M] (idx : IVec (⟨2, ![E, 1]⟩ : Shape) w) (upd : (⟨3, ![E, A, B]⟩ : Shape).Idx → M) (i : (⟨3, ![N, A, B]⟩ : Shape).Idx)
    [DecidablePred fun j : (⟨3, ![E, A, B]⟩ : Shape).Idx => (slabDims N A B E wf).resultIdx? j idx = some i] :
    (∑ j ∈ Finset.univ.filter (fun j => (slabDims N A B E wf).resultIdx? j idx = some i), upd j)
      = ∑ e : Fin E, if (idx (ix2 e 0)).toInt = ((i 0).val : ℤ) then upd (ix3 e (i 1) (i 2)) else 0 := by
  rw [Finset.sum_filter, sum_idx3]
  refine Finset.sum_congr rfl fun e _ => ?_
  rw [← sum_pick ((idx (ix2 e 0)).toInt = ((i 0).val : ℤ)) (i 1) (i 2) (fun a b => upd (ix3 e a b))]
  refine Finset.sum_congr rfl fun a _ => Finset.sum_congr rfl fun b _ => ?_
  by_cases hc : (slabDims N A B E wf).resultIdx? (ix3 e a b) idx = some i
  · rw [if_pos hc, if_pos ((lands_iff wf e a b idx i).1 hc)]
  · rw [if_neg hc, if_neg (fun h => hc ((lands_iff wf e a b idx i).2 h))]

/-- The accumulating slab scatter's element at `i` is the operand's element there plus the sum, over the updates
    whose row number is `i`'s row, of the update's element at `i`'s two other coordinates. -/
theorem hostScatterAdd_slab (x : (⟨3, ![N, A, B]⟩ : Shape).Idx → EReal) (idx : IVec (⟨2, ![E, 1]⟩ : Shape) w) (upd : (⟨3, ![E, A, B]⟩ : Shape).Idx → EReal) (i : (⟨3, ![N, A, B]⟩ : Shape).Idx) :
    Ideal.hostScatterAdd (slabDims N A B E wf) x idx upd i
      = x i + ∑ e : Fin E, if (idx (ix2 e 0)).toInt = ((i 0).val : ℤ) then upd (ix3 e (i 1) (i 2)) else 0 := by
  unfold Ideal.hostScatterAdd
  rw [sum_lands]

end Sum

end Cert.LibSlabScatterSum

end
-- ==== Proof.RefValue.lean ====
/-
  The reference program's value, as the real-number specification.

  The reference forms, for every node e, step s and direction t, the logistic bump
  1 / (1 + exp (-(200 (L s - (X W) e t)))) and adds it into the zero array at row (segment number of e), s, t.
  The accumulating scatter's element at (b, s, t) is the zero it starts from plus the sum of the update elements
  whose landing index is (b, s, t). The landing index of update (e, s', t') is (segment number of e, s', t')
  when that number is in range and none otherwise, so the sum runs over the nodes e whose segment number is b,
  with s' = s and t' = t: the specification's sum. All entries are real numbers, so the sum of extended reals is
  the cast of the real sum.
-/
import proofs.«110302_g1803886264527_cont_8to1_34_14_alg».proof.Proof.Gen.ReferenceIdeal.Read
import proofs.«110302_g1803886264527_cont_8to1_34_14_alg».proof.Proof.Spec
import proofs.«110302_g1803886264527_cont_8to1_34_14_alg».proof.Proof.Reals
import proofs.«110302_g1803886264527_cont_8to1_34_14_alg».proof.Proof.LibRealEntries
import proofs.«110302_g1803886264527_cont_8to1_34_14_alg».proof.Proof.LibSlabScatterSum
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Gen Cert.ReferenceIdeal.Read

/-! ## The update elements -/

/-- The matrix product's element on real entries is the cast of the real projection. -/
theorem dot_elem (x0 : (⟨S50000x128, .f32⟩ : BufTy).Contents (Elt Ideal)) (x2 : (⟨S128x32, .f32⟩ : BufTy).Contents (Elt Ideal))
    (X : Fin 50000 → Fin 128 → ℝ) (W : Fin 128 → Fin 32 → ℝ)
    (hX : ∀ i k, x0 (ix2 i k) = ((X i k : ℝ) : EReal)) (hW : ∀ k t, x2 (ix2 k t) = ((W k t : ℝ) : EReal))
    (e : Fin 50000) (t : Fin 32) :
    val_main_v0 (F := Ideal) x0 x2 (ix2 e t) = ((Cert.Spec.proj X W e t : ℝ) : EReal) := by
  rw [val_main_v0_apply]
  unfold Cert.Spec.proj
  rw [Cert.LibRealEntries.coe_sum]
  refine Finset.sum_congr rfl fun k _ => ?_
  have el : lidx_main_v0 (ix2 e t) k = ix2 e k := funext fun a => Fin.ext (by
    match a with
    | ⟨0, _⟩ => rfl
    | ⟨1, _⟩ => rfl)
  have er : ridx_main_v0 (ix2 e t) k = ix2 k t := funext fun a => Fin.ext (by
    match a with
    | ⟨0, _⟩ => rfl
    | ⟨1, _⟩ => rfl)
  rw [el, er, hX, hW, EReal.coe_mul]

/-- The update element at (e, s, t) is the cast of the logistic bump of node e at step s and direction t. -/
theorem upd_elem (x0 : (⟨S50000x128, .f32⟩ : BufTy).Contents (Elt Ideal)) (x2 : (⟨S128x32, .f32⟩ : BufTy).Contents (Elt Ideal))
    (x3 : (⟨S32x1x1, .f32⟩ : BufTy).Contents (Elt Ideal))
    (X : Fin 50000 → Fin 128 → ℝ) (W : Fin 128 → Fin 32 → ℝ) (L : Fin 32 → ℝ)
    (hX : ∀ i k, x0 (ix2 i k) = ((X i k : ℝ) : EReal)) (hW : ∀ k t, x2 (ix2 k t) = ((W k t : ℝ) : EReal))
    (hL : ∀ s, x3 (ix3 s 0 0) = ((L s : ℝ) : EReal)) (e : Fin 50000) (s t : Fin 32) :
    val_main_v13 (F := Ideal) x0 x2 x3 (ix3 e s t) = ((Cert.Spec.bump X W L e s t : ℝ) : EReal) := by
  rw [val_main_v13_apply, val_main_v12_apply, val_main_v11_apply, val_main_cst_1_apply, val_main_v10_apply,
    val_main_v9_apply, val_main_cst_0_apply, val_main_v8_apply, val_main_v7_apply, val_main_v6_apply,
    val_main_v5_apply, val_main_cst_apply, val_main_v4_apply, val_main_v2_apply, val_main_v3_apply,
    val_main_v1_apply]
  have e2 : idx_main_v2 (idx_main_v13 (ix3 e s t)) = ix3 s 0 0 := funext fun a => Fin.ext (by
    match a with
    | ⟨0, _⟩ => rfl
    | ⟨1, _⟩ => rfl
    | ⟨2, _⟩ => rfl)
  have e0 : idx_main_v1 (idx_main_v3 (idx_main_v13 (ix3 e s t))) = ix2 e t := funext fun a => Fin.ext (by
    match a with
    | ⟨0, _⟩ => rfl
    | ⟨1, _⟩ => rfl)
  rw [e2, e0, hL, dot_elem x0 x2 X W hX hW]
  show Ideal.div (Ideal.ofBits .f32 0x3F800000#32) (Ideal.ofBits .f32 0x3F800000#32
      + Ideal.exp (-(Ideal.ofBits .f32 0x43480000#32 * (((L s : ℝ) : EReal) - ((Cert.Spec.proj X W e t : ℝ) : EReal))))) = _
  rw [Cert.Reals.ofBits_one, Cert.Reals.ofBits_200, Cert.Reals.ref_elem]
  rfl

/-! ## The reference's value -/

open Idealize.ShloMosaic Idealize.ShloMosaic.ValueIdx Cert.ReferenceIdeal in
theorem ref_eq (x0 : (⟨S50000x128, .f32⟩ : BufTy).Contents (Elt Ideal)) (x1 : (⟨S50000, .i32⟩ : BufTy).Contents (Elt Ideal))
    (x2 : (⟨S128x32, .f32⟩ : BufTy).Contents (Elt Ideal)) (x3 : (⟨S32x1x1, .f32⟩ : BufTy).Contents (Elt Ideal))
    (X : Fin 50000 → Fin 128 → ℝ) (W : Fin 128 → Fin 32 → ℝ) (L : Fin 32 → ℝ)
    (hX : ∀ i k, x0 (ix2 i k) = ((X i k : ℝ) : EReal)) (hW : ∀ k t, x2 (ix2 k t) = ((W k t : ℝ) : EReal))
    (hL : ∀ s, x3 (ix3 s 0 0) = ((L s : ℝ) : EReal)) :
    Cert.ReferenceIdeal.Read.val_main_v16 (F := Ideal) x0 x1 x2 x3
      = fun y => ((Cert.Spec.ect X W L (fun i => (x1 (ix1 i)).toInt) (y 0) (y 1) (y 2) : ℝ) : EReal) := by
  funext y
  refine (Cert.LibSlabScatterSum.hostScatterAdd_slab (N := 128) (A := 32) (B := 32) (E := 50000)
    Facts₀.scatter_S128x32x32_S50000x1_S50000x32x32_12_0_0_1_wf
    (val_main_v14 (F := Ideal)) (val_main_v15 (F := Ideal) x1) (val_main_v13 (F := Ideal) x0 x2 x3) y).trans ?_
  rw [val_main_v14_apply, val_main_cst_2_apply]
  show Ideal.ofBits .f32 0x00000000#32 + _ = _
  rw [Cert.Reals.ofBits_zero, EReal.coe_zero, zero_add]
  unfold Cert.Spec.ect
  rw [Cert.LibRealEntries.coe_sum]
  refine Finset.sum_congr rfl fun e _ => ?_
  have e15 : idx_main_v15 (ix2 e 0) = ix1 e := funext fun a => Fin.ext (by
    match a with
    | ⟨0, _⟩ => rfl)
  rw [val_main_v15_apply, e15]
  by_cases hc : (x1 (ix1 e)).toInt = ((y 0).val : ℤ)
  · rw [if_pos hc, if_pos hc]
    exact upd_elem x0 x2 x3 X W L hX hW hL e (y 1) (y 2)
  · rw [if_neg hc, if_neg hc, EReal.coe_zero]

end Cert.RefValue

end
-- ==== Proof.Finite.lean ====
/-
  From the finiteness precondition to real numbers.

  The precondition is the conjunction of three `all (|x| < +∞)` tests, one per floating-point input. Each test is a
  reduction by `and` of the elementwise comparison, so when the conjunction is 1 every element of every input has
  an absolute value strictly below +∞. An extended real with that property is neither +∞ nor -∞ (the absolute
  value of either is +∞), hence a real number; choosing these reals entry by entry gives the three real arrays.
-/
import proofs.«110302_g1803886264527_cont_8to1_34_14_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The pattern 0x7F800000 denotes +∞. -/
theorem ofBits_inf : Ideal.ofBits .f32 0x7F800000#32 = (⊤ : EReal) := by
  simp [Ideal.ofBits, Ideal.ieee]

/-- The scalar shape has one index. -/
instance subsingleton_scalar_idx : Subsingleton S_.Idx := ⟨fun a b => funext fun d => d.elim0⟩

/-- An extended real whose absolute value `max x (-x)` is strictly below +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- An element that passes the test `|a i| < c i` against the constant +∞ is a real number. -/
theorem real_of_test {s : Shape} (a c : FVec Ideal s .f32) (hc : ∀ i, c i = Ideal.ofBits .f32 0x7F800000#32) (i : s.Idx)
    (h : cmpf .olt (Host.absf a) c i = 1#1) : ∃ r : ℝ, a i = (r : EReal) := by
  apply real_of_abs_lt_top
  rw [← ofBits_inf, ← hc i]
  exact h

theorem reals_of_pre [Cert.Pre_finite_inputs.Facts] (a0 : FVec Ideal S50000x128 .f32) (a1 : IVec S50000 32) (a2 : FVec Ideal S128x32 .f32) (a3 : FVec Ideal S32x1x1 .f32)
    (h : Cert.Pre_finite_inputs.fn (F := Ideal) a0 a1 a2 a3 = (fun _ => 1#1)) :
    ∃ (X : Fin 50000 → Fin 128 → ℝ) (W : Fin 128 → Fin 32 → ℝ) (L : Fin 32 → ℝ),
      (∀ i k, a0 (ix2 i k) = ((X i k : ℝ) : EReal)) ∧ (∀ k t, a2 (ix2 k t) = ((W k t : ℝ) : EReal)) ∧ (∀ s, a3 (ix3 s 0 0) = ((L s : ℝ) : EReal)) := by
  have h0 := congrFun h ix0
  dsimp only [fn] at h0
  obtain ⟨h01, h3⟩ := IntOp.andi_eq_one.1 h0
  obtain ⟨h1, h2⟩ := IntOp.andi_eq_one.1 h01
  have r0 : ∀ i, ∃ r : ℝ, a0 i = (r : EReal) := fun i =>
    real_of_test a0 _ (fun _ => rfl) i (Host.reduce_andi_all _ _ _ _ ix0 h1 i)
  have r2 : ∀ i, ∃ r : ℝ, a2 i = (r : EReal) := fun i =>
    real_of_test a2 _ (fun _ => rfl) i (Host.reduce_andi_all _ _ _ _ ix0 h2 i)
  have r3 : ∀ i, ∃ r : ℝ, a3 i = (r : EReal) := fun i =>
    real_of_test a3 _ (fun _ => rfl) i (Host.reduce_andi_all _ _ _ _ ix0 h3 i)
  choose X hX using fun (i : Fin 50000) (k : Fin 128) => r0 (ix2 i k)
  choose W hW using fun (k : Fin 128) (t : Fin 32) => r2 (ix2 k t)
  choose L hL using fun (s : Fin 32) => r3 (ix3 s 0 0)
  exact ⟨X, W, L, hX, hW, hL⟩

end Cert.Finite

end
-- ==== Proof.Bridge.lean ====
/-
  The kernel's arrangement of the sum is the specification.

  The kernel walks the 50000 nodes in 10 blocks of 5000 and keeps two running sums per segment: the sum of
  tanh (100 L s - 100 (X W) i t) over the segment's nodes seen so far, and the number of those nodes; it returns
  half of their sum. Three facts give the specification:

  * a quantity accumulated block by block is the sum over the blocks of the blocks' contributions;
  * node j of block g is node 5000 g + j, and (g, j) ↦ 5000 g + j is a bijection from pairs to the 50000 nodes, so
    the double sum over blocks and nodes of a block is the single sum over all nodes;
  * for one node, half of (tanh term times indicator plus indicator) is the logistic bump when the node is in the
    segment and 0 when it is not, because the logistic function of 2u is (tanh u + 1) / 2.
-/
import proofs.«110302_g1803886264527_cont_8to1_34_14_alg».proof.Proof.Spec
import proofs.«110302_g1803886264527_cont_8to1_34_14_alg».proof.Proof.Reals
import proofs.«110302_g1803886264527_cont_8to1_34_14_alg».proof.Proof.LibRealEntries

noncomputable section

open scoped BigOperators

namespace Cert.Bridge

open Cert.Spec

/-- A quantity built up block by block is the sum of the blocks' contributions. -/
theorem rec_eq_sum (F : (g : ℕ) → g < 10 → ℝ) (R : (n : ℕ) → n < 10 → ℝ) (h0 : ∀ h, R 0 h = F 0 h)
    (hs : ∀ n h, R (n + 1) h = R n (Nat.lt_of_succ_lt h) + F (n + 1) h) :
    ∀ n (h : n < 10), R n h = ∑ g : Fin (n + 1), F g.val (Nat.lt_of_lt_of_le g.isLt h) := by
  intro n
  induction n with
  | zero =>
    intro h
    rw [Fin.sum_univ_one]
    exact h0 h
  | succ n ih =>
    intro h
    rw [Fin.sum_univ_castSucc, hs n h, ih (Nat.lt_of_succ_lt h)]
    rfl

/-- The tanh sums after all ten blocks. -/
theorem accR_eq (X : Fin 50000 → Fin 128 → ℝ) (W : Fin 128 → Fin 32 → ℝ) (L : Fin 32 → ℝ) (B : Fin 50000 → ℤ)
    (h : 9 < 10) (s t : Fin 32) (b : Fin 128) :
    accR X W L B 9 h s t b = ∑ g : Fin 10, blockAcc X W L B g.val g.isLt s t b :=
  rec_eq_sum (fun g hg => blockAcc X W L B g hg s t b) (fun n h => accR X W L B n h s t b)
    (fun _ => rfl) (fun _ _ => rfl) 9 h

/-- The counts after all ten blocks. -/
theorem cntR_eq (B : Fin 50000 → ℤ) (h : 9 < 10) (b : Fin 128) :
    cntR B 9 h b = ∑ g : Fin 10, blockCnt B g.val g.isLt b :=
  rec_eq_sum (fun g hg => blockCnt B g hg b) (fun n h => cntR B n h b) (fun _ => rfl) (fun _ _ => rfl) 9 h

/-- A sum over N = m n numbers is the double sum over m and n, entry (p, q) at q + n p. -/
theorem sum_fin_mul_cast {m n N : ℕ} (hN : m * n = N) (f : Fin N → ℝ) :
    ∑ k, f k = ∑ p : Fin m, ∑ q : Fin n, f (Fin.cast hN (finProdFinEquiv (p, q))) := by
  subst hN
  exact Cert.LibRealEntries.sum_fin_mul f

/-- The double sum over the blocks and the nodes of a block is the sum over all nodes. -/
theorem sum_blocks (f : Fin 50000 → ℝ) :
    ∑ g : Fin 10, ∑ j : Fin 5000, f (node g.val g.isLt j) = ∑ i : Fin 50000, f i := by
  rw [sum_fin_mul_cast (m := 10) (n := 5000) (by norm_num) f]
  refine Finset.sum_congr rfl fun p _ => Finset.sum_congr rfl fun q _ => ?_
  congr 1
  apply Fin.ext
  show 5000 * p.val + q.val = q.val + 5000 * p.val
  omega

/-- One node's share: half of (tanh term times indicator plus indicator) is the bump inside the segment, 0 outside. -/
theorem term_eq (X : Fin 50000 → Fin 128 → ℝ) (W : Fin 128 → Fin 32 → ℝ) (L : Fin 32 → ℝ) (B : Fin 50000 → ℤ)
    (b : Fin 128) (s t : Fin 32) (i : Fin 50000) :
    1 / 2 * (tterm X W L i s t * (if B i = (b.val : ℤ) then 1 else 0) + (if B i = (b.val : ℤ) then (1 : ℝ) else 0))
      = if B i = (b.val : ℤ) then bump X W L i s t else 0 := by
  by_cases hc : B i = (b.val : ℤ)
  · simp only [if_pos hc]
    rw [mul_one]
    unfold bump tterm
    rw [Cert.Reals.logistic_200]
    have hp : (∑ k : Fin 128, W k t * X i k) = proj X W i t := by
      unfold proj
      exact Finset.sum_congr rfl fun k _ => mul_comm _ _
    rw [hp]
  · simp only [if_neg hc]
    rw [mul_zero, add_zero, mul_zero]

theorem kernelOut_eq_ect (X : Fin 50000 → Fin 128 → ℝ) (W : Fin 128 → Fin 32 → ℝ) (L : Fin 32 → ℝ) (B : Fin 50000 → ℤ) (b : Fin 128) (s t : Fin 32) :
    Cert.Spec.kernelOut X W L B b s t = Cert.Spec.ect X W L B b s t := by
  unfold kernelOut ect
  rw [accR_eq, cntR_eq]
  have hA : ∑ g : Fin 10, blockAcc X W L B g.val g.isLt s t b
      = ∑ i : Fin 50000, tterm X W L i s t * (if B i = (b.val : ℤ) then 1 else 0) :=
    sum_blocks (fun i => tterm X W L i s t * (if B i = (b.val : ℤ) then 1 else 0))
  have hC : ∑ g : Fin 10, blockCnt B g.val g.isLt b = ∑ i : Fin 50000, (if B i = (b.val : ℤ) then (1 : ℝ) else 0) :=
    sum_blocks (fun i => if B i = (b.val : ℤ) then (1 : ℝ) else 0)
  rw [hA, hC, ← Finset.sum_add_distrib, Finset.mul_sum]
  exact Finset.sum_congr rfl fun i _ => term_eq X W L B b s t i

end Cert.Bridge

end
-- ==== Proof.lean ====
/-
  The kernel computes, for every segment b, step s and direction t, the sum over the nodes i of segment b of
  the logistic function of 200 * (lin s - (x v) i t), and so does the reference.

  The reference forms the [32, 50000, 32] array of logistic values and adds each node's slab to its segment
  by a scatter-add. The kernel walks the nodes in 10 blocks of 5000: per block it computes
  tanh (100 lin s - 100 (x v) i t), multiplies by the one-hot matrix of the block's segment numbers on the
  matrix unit, accumulates, counts the block's nodes per segment, and at the end returns half of (the tanh
  sums plus the counts). On real inputs the two agree because the logistic function of 2u is (tanh u + 1) / 2
  and finite sums of reals may be regrouped; a node whose segment number is outside 0 .. 127 contributes to
  neither.

  The three frames: the two kernels' are the generated frame runs; the reference's is its generated run with
  the result dropped. The idealization rewrote nothing. The algebraic claim: the precondition makes the float
  inputs real (Finite.lean); the kernel's run ends at its sums (KernelValue.lean, over Invariant, Steps, Pieces,
  Tile, Blocks), the reference's at the specification (RefValue.lean), and the two are one number (Bridge.lean).
-/
import proofs.«110302_g1803886264527_cont_8to1_34_14_alg».proof.Defs
import proofs.«110302_g1803886264527_cont_8to1_34_14_alg».proof.Proof.Gen.Kernel
import proofs.«110302_g1803886264527_cont_8to1_34_14_alg».proof.Proof.Gen.Kernel.Skeleton
import proofs.«110302_g1803886264527_cont_8to1_34_14_alg».proof.Proof.Gen.Kernel.Launch
import proofs.«110302_g1803886264527_cont_8to1_34_14_alg».proof.Proof.Gen.Kernel.Points
import proofs.«110302_g1803886264527_cont_8to1_34_14_alg».proof.Proof.Gen.Kernel.Frame
import proofs.«110302_g1803886264527_cont_8to1_34_14_alg».proof.Proof.Gen.KernelIdeal
import proofs.«110302_g1803886264527_cont_8to1_34_14_alg».proof.Proof.Gen.KernelIdeal.Skeleton
import proofs.«110302_g1803886264527_cont_8to1_34_14_alg».proof.Proof.Gen.KernelIdeal.Launch
import proofs.«110302_g1803886264527_cont_8to1_34_14_alg».proof.Proof.Gen.KernelIdeal.Points
import proofs.«110302_g1803886264527_cont_8to1_34_14_alg».proof.Proof.Gen.KernelIdeal.Frame
import proofs.«110302_g1803886264527_cont_8to1_34_14_alg».proof.Proof.Gen.ReferenceIdeal
import proofs.«110302_g1803886264527_cont_8to1_34_14_alg».proof.Proof.Gen.ReferenceIdeal.Run
import proofs.«110302_g1803886264527_cont_8to1_34_14_alg».proof.Proof.Gen.ReferenceIdeal.Read
import proofs.«110302_g1803886264527_cont_8to1_34_14_alg».proof.Proof.Gen.Pre_finite_inputs
import proofs.«110302_g1803886264527_cont_8to1_34_14_alg».proof.Proof.KernelValue
import proofs.«110302_g1803886264527_cont_8to1_34_14_alg».proof.Proof.RefValue
import proofs.«110302_g1803886264527_cont_8to1_34_14_alg».proof.Proof.Finite
import proofs.«110302_g1803886264527_cont_8to1_34_14_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs both programs end at the same sums: the kernel at half of (tanh sums plus counts), the
    reference at the segment sums of the logistic values. -/
theorem algebraic : Cert.algebraic_KernelIdeal_ReferenceIdeal := by
  intro m ρ m' ρ' hpre hagree
  have hr : ∀ c : Dev Cert.KernelIdeal.nD, ∃ (X : Fin 50000 → Fin 128 → ℝ) (W : Fin 128 → Fin 32 → ℝ) (L : Fin 32 → ℝ),
      (∀ i k, m ((c.tc : Thread Cert.KernelIdeal.nD Cert.KernelIdeal.τ).loc Cert.KernelIdeal.main_arg0) (ix2 i k) = ((X i k : ℝ) : EReal))
      ∧ (∀ k t, m ((c.tc : Thread Cert.KernelIdeal.nD Cert.KernelIdeal.τ).loc Cert.KernelIdeal.main_arg2) (ix2 k t) = ((W k t : ℝ) : EReal))
      ∧ (∀ s, m ((c.tc : Thread Cert.KernelIdeal.nD Cert.KernelIdeal.τ).loc Cert.KernelIdeal.main_arg3) (ix3 s 0 0) = ((L s : ℝ) : EReal)) :=
    fun c => Cert.Finite.reals_of_pre _ _ _ _ (hpre c)
  choose X W L hX hW hL using hr
  refine ⟨fun c => Cert.KernelIdeal.KValue.resArr (X c) (W c) (L c) (Cert.KernelIdeal.Inv.Bm m c),
    Cert.KernelIdeal.KValue.run m ρ X W L hX hW hL, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2,
    Cert.RefValue.ref_eq _ _ _ _ (X c) (W c) (L c) (hX c) (hW c) (hL c)]
  funext y
  exact congrArg (fun z : ℝ => (z : EReal)) (Cert.Bridge.kernelOut_eq_ect (X c) (W c) (L c) _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
